-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S3x128x128 : Shape := ⟨3, ![3, 128, 128]⟩
abbrev S6x128x128 : Shape := ⟨3, ![6, 128, 128]⟩
abbrev S6x1x128 : Shape := ⟨3, ![6, 1, 128]⟩
abbrev S128x128 : Shape := ⟨2, ![128, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S6x128x128 : S_.BroadcastsInDim S6x128x128 (![] : Fin 0 → Fin S6x128x128.rank)
  reducesTo_S6x128x128_S_d0_1_2 : S6x128x128.ReducesTo [0, 1, 2] S_
  bcast_S_S6x1x128 : S_.BroadcastsInDim S6x1x128 (![] : Fin 0 → Fin S6x1x128.rank)
  reducesTo_S6x1x128_S_d0_1_2 : S6x1x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S6x128x128 .f32) (main_arg5 : FVec F S6x1x128 .f32) (main_arg6 : FVec F S128x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S6x128x128 .f32 := Host.absf main_arg4
  let main_cst_6 : FVec F S_ .f32 := constant S_ .f32 0x7F800000#32
  let main_v20 : FVec F S6x128x128 .f32 := broadcastInDim S6x128x128 ![] bcast_S_S6x128x128 main_cst_6
  let main_v21 : IVec S6x128x128 1 := cmpf .olt main_v19 main_v20
  let main_c_7 : IVec S_ 1 := constantI S_ 1 1#1
  let main_v22 : IVec S_ 1 := (fun x v => Host.reduce IntOp.andi x v reducesTo_S6x128x128_S_d0_1_2 h_S_) main_v21 main_c_7
  let main_v23 : IVec S_ 1 := andi main_v18 main_v22
  let main_v24 : FVec F S6x1x128 .f32 := Host.absf main_arg5
  let main_cst_8 : FVec F S_ .f32 := constant S_ .f32 0x7F800000#32
  let main_v25 : FVec F S6x1x128 .f32 := broadcastInDim S6x1x128 ![] bcast_S_S6x1x128 main_cst_8
  let main_v26 : IVec S6x1x128 1 := cmpf .olt main_v24 main_v25
  let main_c_9 : IVec S_ 1 := constantI S_ 1 1#1
  let main_v27 : IVec S_ 1 := (fun x v => Host.reduce IntOp.andi x v reducesTo_S6x1x128_S_d0_1_2 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S131072x128 .f32) (main_arg1 : FVec F S131072x128 .f32) (main_arg2 : FVec F S3x128x128 .f32) (main_arg3 : FVec F S3x128x128 .f32) (main_arg4 : FVec F S6x128x128 .f32) (main_arg5 : FVec F S6x1x128 .f32) (main_arg6 : FVec F S128x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_v13 main_v16
-- ==== Kernel.lean ====
abbrev S131072x128 : Shape := ⟨2, ![131072, 128]⟩
abbrev S3x128x128 : Shape := ⟨3, ![3, 128, 128]⟩
abbrev S6x128x128 : Shape := ⟨3, ![6, 128, 128]⟩
abbrev S6x1x128 : Shape := ⟨3, ![6, 1, 128]⟩
abbrev S128x128 : Shape := ⟨2, ![128, 128]⟩
abbrev S_ : Shape := ⟨0, ![]⟩
abbrev S1x128x128 : Shape := ⟨3, ![1, 128, 128]⟩
abbrev S128x384 : Shape := ⟨2, ![128, 384]⟩
abbrev S256x384 : Shape := ⟨2, ![256, 384]⟩
abbrev S1x1x128 : Shape := ⟨3, ![1, 1, 128]⟩
abbrev S1x128 : Shape := ⟨2, ![1, 128]⟩
abbrev S1x384 : Shape := ⟨2, ![1, 384]⟩
abbrev S2048x128 : Shape := ⟨2, ![2048, 128]⟩
abbrev S2048x256 : Shape := ⟨2, ![2048, 256]⟩
abbrev S2048x384 : Shape := ⟨2, ![2048, 384]⟩

abbrev nBuf : Space → Nat
  | .hbm => 58
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S3x128x128, .f32⟩
  | .hbm, ⟨3, _⟩ => ⟨S3x128x128, .f32⟩
  | .hbm, ⟨4, _⟩ => ⟨S6x128x128, .f32⟩
  | .hbm, ⟨5, _⟩ => ⟨S6x1x128, .f32⟩
  | .hbm, ⟨6, _⟩ => ⟨S128x128, .f32⟩
  | .hbm, ⟨7, _⟩ => ⟨S3x128x128, .bf16⟩
  | .hbm, ⟨8, _⟩ => ⟨S3x128x128, .bf16⟩
  | .hbm, ⟨9, _⟩ => ⟨S6x128x128, .bf16⟩
  | .hbm, ⟨10, _⟩ => ⟨S128x128, .bf16⟩
  | .hbm, ⟨11, _⟩ => ⟨S_, .bf16⟩
  | .hbm, ⟨12, _⟩ => ⟨S128x128, .bf16⟩
  | .hbm, ⟨13, _⟩ => ⟨S1x128x128, .bf16⟩
  | .hbm, ⟨14, _⟩ => ⟨S128x128, .bf16⟩
  | .hbm, ⟨15, _⟩ => ⟨S1x128x128, .bf16⟩
  | .hbm, ⟨16, _⟩ => ⟨S128x128, .bf16⟩
  | .hbm, ⟨17, _⟩ => ⟨S1x128x128, .bf16⟩
  | .hbm, ⟨18, _⟩ => ⟨S128x128, .bf16⟩
  | .hbm, ⟨19, _⟩ => ⟨S128x384, .bf16⟩
  | .hbm, ⟨20, _⟩ => ⟨S1x128x128, .bf16⟩
  | .hbm, ⟨21, _⟩ => ⟨S128x128, .bf16⟩
  | .hbm, ⟨22, _⟩ => ⟨S1x128x128, .bf16⟩
  | .hbm, ⟨23, _⟩ => ⟨S128x128, .bf16⟩
  | .hbm, ⟨24, _⟩ => ⟨S128x384, .bf16⟩
  | .hbm, ⟨25, _⟩ => ⟨S256x384, .bf16⟩
  | .hbm, ⟨26, _⟩ => ⟨S1x128x128, .bf16⟩
  | .hbm, ⟨27, _⟩ => ⟨S128x128, .bf16⟩
  | .hbm, ⟨28, _⟩ => ⟨S1x128x128, .bf16⟩
  | .hbm, ⟨29, _⟩ => ⟨S128x128, .bf16⟩
  | .hbm, ⟨30, _⟩ => ⟨S1x128x128, .bf16⟩
  | .hbm, ⟨31, _⟩ => ⟨S128x128, .bf16⟩
  | .hbm, ⟨32, _⟩ => ⟨S128x384, .bf16⟩
  | .hbm, ⟨33, _⟩ => ⟨S1x128x128, .bf16⟩
  | .hbm, ⟨34, _⟩ => ⟨S128x128, .bf16⟩
  | .hbm, ⟨35, _⟩ => ⟨S1x128x128, .bf16⟩
  | .hbm, ⟨36, _⟩ => ⟨S128x128, .bf16⟩
  | .hbm, ⟨37, _⟩ => ⟨S128x384, .bf16⟩
  | .hbm, ⟨38, _⟩ => ⟨S256x384, .bf16⟩
  | .hbm, ⟨39, _⟩ => ⟨S1x128x128, .bf16⟩
  | .hbm, ⟨40, _⟩ => ⟨S128x128, .bf16⟩
  | .hbm, ⟨41, _⟩ => ⟨S1x128x128, .bf16⟩
  | .hbm, ⟨42, _⟩ => ⟨S128x128, .bf16⟩
  | .hbm, ⟨43, _⟩ => ⟨S1x1x128, .f32⟩
  | .hbm, ⟨44, _⟩ => ⟨S1x128, .f32⟩
  | .hbm, ⟨45, _⟩ => ⟨S1x1x128, .f32⟩
  | .hbm, ⟨46, _⟩ => ⟨S1x128, .f32⟩
  | .hbm, ⟨47, _⟩ => ⟨S1x1x128, .f32⟩
  | .hbm, ⟨48, _⟩ => ⟨S1x128, .f32⟩
  | .hbm, ⟨49, _⟩ => ⟨S1x384, .f32⟩
  | .hbm, ⟨50, _⟩ => ⟨S1x1x128, .f32⟩
  | .hbm, ⟨51, _⟩ => ⟨S1x128, .f32⟩
  | .hbm, ⟨52, _⟩ => ⟨S1x1x128, .f32⟩
  | .hbm, ⟨53, _⟩ => ⟨S1x128, .f32⟩
  | .hbm, ⟨54, _⟩ => ⟨S1x1x128, .f32⟩
  | .hbm, ⟨55, _⟩ => ⟨S1x128, .f32⟩
  | .hbm, ⟨56, _⟩ => ⟨S1x384, .f32⟩
  | .hbm, ⟨57, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S256x384, .bf16⟩
  | .local _ .vmem, ⟨5, _⟩ => ⟨S256x384, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x384, .f32⟩
  | .local _ .vmem, ⟨10, _⟩ => ⟨S1x384, .f32⟩
  | .local _ .vmem, ⟨11, _⟩ => ⟨S2048x128, .f32⟩
  | .local _ .vmem, ⟨12, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S128x128 : S_.BroadcastsInDim S128x128 (![] : Fin 0 → Fin S128x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S128x128_S128x128_S128x128_S128x384_d1 : Shape.Concatenates [S128x128, S128x128, S128x128] S128x384 1
  slices_S6x128x128_S1x128x128_0_0_0 : S6x128x128.Slices ![0, 0, 0] S1x128x128
  slices_S6x128x128_S1x128x128_1_0_0 : S6x128x128.Slices ![1, 0, 0] S1x128x128
  concatenates_S128x384_S128x384_S256x384_d0 : Shape.Concatenates [S128x384, S128x384] S256x384 0
  slices_S6x128x128_S1x128x128_4_0_0 : S6x128x128.Slices ![4, 0, 0] S1x128x128
  slices_S6x128x128_S1x128x128_2_0_0 : S6x128x128.Slices ![2, 0, 0] S1x128x128
  slices_S6x128x128_S1x128x128_5_0_0 : S6x128x128.Slices ![5, 0, 0] S1x128x128
  slices_S6x1x128_S1x1x128_0_0_0 : S6x1x128.Slices ![0, 0, 0] S1x1x128
  shapeCasts_S1x1x128_S1x128 : S1x1x128.ShapeCasts S1x128
  slices_S6x1x128_S1x1x128_1_0_0 : S6x1x128.Slices ![1, 0, 0] S1x1x128
  slices_S6x1x128_S1x1x128_2_0_0 : S6x1x128.Slices ![2, 0, 0] S1x1x128
  concatenates_S1x128_S1x128_S1x128_S1x384_d1 : Shape.Concatenates [S1x128, S1x128, S1x128] S1x384 1
  slices_S6x1x128_S1x1x128_4_0_0 : S6x1x128.Slices ![4, 0, 0] S1x1x128
  slices_S6x1x128_S1x1x128_5_0_0 : S6x1x128.Slices ![5, 0, 0] S1x1x128
  inb_S2048x128_S2048x128_0_0 : ∀ a, (![0, 0] : Fin 2 → Nat) a + S2048x128.size a ≤ S2048x128.size a
  h_S2048x128 : 0 < S2048x128.numel
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x384_S1x384_0_0 : ∀ a, (![0, 0] : Fin 2 → Nat) a + S1x384.size a ≤ S1x384.size a
  h_S1x384 : 0 < S1x384.numel
  shapeCasts_S1x384_S1x384 : S1x384.ShapeCasts S1x384
  concatenates_S2048x128_S2048x128_S2048x256_d1 : Shape.Concatenates [S2048x128, S2048x128] S2048x256 1
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  dot_S2048x256_S256x384_S2048x384_1_0_0_1_n_n_wf : DotDims.WF S2048x256 S256x384 S2048x384 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x384.size a ≤ S256x384.size a
  hwx0_2 : ∀ i : grid0.Coords, EltTy.bits .bf16 = 32 ∨ (Rect.block (s := S256x384) S256x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x384.size a ≤ S256x384.size a
  hwx0_3 : ∀ i : grid0.Coords, EltTy.bits .bf16 = 32 ∨ (Rect.block (s := S256x384) S256x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S131072x128.size a
  hwx0_9 : ∀ i : grid0.Coords, EltTy.bits .f32 = 32 ∨ (Rect.block (s := S131072x128) S2048x128.size (cc0_transform_9 i) (hinb0_9 i)).WholeWords (EltTy.packing .f32)

variable [Facts₀]

def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S256x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x128 : Shape := ⟨2, ![131072, 128]⟩
abbrev S3x128x128 : Shape := ⟨3, ![3, 128, 128]⟩
abbrev S6x128x128 : Shape := ⟨3, ![6, 128, 128]⟩
abbrev S6x1x128 : Shape := ⟨3, ![6, 1, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S_ : Shape := ⟨0, ![]⟩

abbrev nBuf : Space → Nat
  | .hbm => 125
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S3x128x128, .f32⟩
  | .hbm, ⟨3, _⟩ => ⟨S3x128x128, .f32⟩
  | .hbm, ⟨4, _⟩ => ⟨S6x128x128, .f32⟩
  | .hbm, ⟨5, _⟩ => ⟨S6x1x128, .f32⟩
  | .hbm, ⟨6, _⟩ => ⟨S128x128, .f32⟩
  | .hbm, ⟨7, _⟩ => ⟨S1x128x128, .f32⟩
  | .hbm, ⟨8, _⟩ => ⟨S128x128, .f32⟩
  | .hbm, ⟨9, _⟩ => ⟨S131072x128, .f32⟩
  | .hbm, ⟨10, _⟩ => ⟨S1x128x128, .f32⟩
  | .hbm, ⟨11, _⟩ => ⟨S128x128, .f32⟩
  | .hbm, ⟨12, _⟩ => ⟨S131072x128, .f32⟩
  | .hbm, ⟨13, _⟩ => ⟨S131072x128, .f32⟩
  | .hbm, ⟨14, _⟩ => ⟨S1x1x128, .f32⟩
  | .hbm, ⟨15, _⟩ => ⟨S1x128, .f32⟩
  | .hbm, ⟨16, _⟩ => ⟨S131072x128, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S_, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .f32⟩
  | .hbm, ⟨26, _⟩ => ⟨S1x128x128, .f32⟩
  | .hbm, ⟨27, _⟩ => ⟨S128x128, .f32⟩
  | .hbm, ⟨28, _⟩ => ⟨S131072x128, .f32⟩
  | .hbm, ⟨29, _⟩ => ⟨S1x128x128, .f32⟩
  | .hbm, ⟨30, _⟩ => ⟨S128x128, .f32⟩
  | .hbm, ⟨31, _⟩ => ⟨S131072x128, .f32⟩
  | .hbm, ⟨32, _⟩ => ⟨S131072x128, .f32⟩
  | .hbm, ⟨33, _⟩ => ⟨S1x1x128, .f32⟩
  | .hbm, ⟨34, _⟩ => ⟨S1x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S_, .f32⟩
  | .hbm, ⟨40, _⟩ => ⟨S131072x128, .f32⟩
  | .hbm, ⟨41, _⟩ => ⟨S131072x128, .f32⟩
  | .hbm, ⟨42, _⟩ => ⟨S_, .f32⟩
  | .hbm, ⟨43, _⟩ => ⟨S131072x128, .f32⟩
  | .hbm, ⟨44, _⟩ => ⟨S131072x128, .f32⟩
  | .hbm, ⟨45, _⟩ => ⟨S1x128x128, .f32⟩
  | .hbm, ⟨46, _⟩ => ⟨S128x128, .f32⟩
  | .hbm, ⟨47, _⟩ => ⟨S131072x128, .f32⟩
  | .hbm, ⟨48, _⟩ => ⟨S131072x128, .f32⟩
  | .hbm, ⟨49, _⟩ => ⟨S1x128x128, .f32⟩
  | .hbm, ⟨50, _⟩ => ⟨S128x128, .f32⟩
  | .hbm, ⟨51, _⟩ => ⟨S131072x128, .f32⟩
  | .hbm, ⟨52, _⟩ => ⟨S131072x128, .f32⟩
  | .hbm, ⟨53, _⟩ => ⟨S1x1x128, .f32⟩
  | .hbm, ⟨54, _⟩ => ⟨S1x128, .f32⟩
  | .hbm, ⟨55, _⟩ => ⟨S131072x128, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S_, .f32⟩
  | .hbm, ⟨60, _⟩ => ⟨S131072x128, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S_, .f32⟩
  | .hbm, ⟨66, _⟩ => ⟨S131072x128, .f32⟩
  | .hbm, ⟨67, _⟩ => ⟨S131072x128, .f32⟩
  | .hbm, ⟨68, _⟩ => ⟨S1x128x128, .f32⟩
  | .hbm, ⟨69, _⟩ => ⟨S128x128, .f32⟩
  | .hbm, ⟨70, _⟩ => ⟨S131072x128, .f32⟩
  | .hbm, ⟨71, _⟩ => ⟨S1x128x128, .f32⟩
  | .hbm, ⟨72, _⟩ => ⟨S128x128, .f32⟩
  | .hbm, ⟨73, _⟩ => ⟨S131072x128, .f32⟩
  | .hbm, ⟨74, _⟩ => ⟨S131072x128, .f32⟩
  | .hbm, ⟨75, _⟩ => ⟨S1x1x128, .f32⟩
  | .hbm, ⟨76, _⟩ => ⟨S1x128, .f32⟩
  | .hbm, ⟨77, _⟩ => ⟨S131072x128, .f32⟩
  | .hbm, ⟨78, _⟩ => ⟨S131072x128, .f32⟩
  | .hbm, ⟨79, _⟩ => ⟨S131072x128, .f32⟩
  | .hbm, ⟨80, _⟩ => ⟨S131072x128, .f32⟩
  | .hbm, ⟨81, _⟩ => ⟨S_, .f32⟩
  | .hbm, ⟨82, _⟩ => ⟨S131072x128, .f32⟩
  | .hbm, ⟨83, _⟩ => ⟨S131072x128, .f32⟩
  | .hbm, ⟨84, _⟩ => ⟨S_, .f32⟩
  | .hbm, ⟨85, _⟩ => ⟨S131072x128, .f32⟩
  | .hbm, ⟨86, _⟩ => ⟨S131072x128, .f32⟩
  | .hbm, ⟨87, _⟩ => ⟨S1x128x128, .f32⟩
  | .hbm, ⟨88, _⟩ => ⟨S128x128, .f32⟩
  | .hbm, ⟨89, _⟩ => ⟨S131072x128, .f32⟩
  | .hbm, ⟨90, _⟩ => ⟨S1x128x128, .f32⟩
  | .hbm, ⟨91, _⟩ => ⟨S128x128, .f32⟩
  | .hbm, ⟨92, _⟩ => ⟨S131072x128, .f32⟩
  | .hbm, ⟨93, _⟩ => ⟨S131072x128, .f32⟩
  | .hbm, ⟨94, _⟩ => ⟨S1x1x128, .f32⟩
  | .hbm, ⟨95, _⟩ => ⟨S1x128, .f32⟩
  | .hbm, ⟨96, _⟩ => ⟨S131072x128, .f32⟩
  | .hbm, ⟨97, _⟩ => ⟨S131072x128, .f32⟩
  | .hbm, ⟨98, _⟩ => ⟨S131072x128, .f32⟩
  | .hbm, ⟨99, _⟩ => ⟨S131072x128, .f32⟩
  | .hbm, ⟨100, _⟩ => ⟨S_, .f32⟩
  | .hbm, ⟨101, _⟩ => ⟨S131072x128, .f32⟩
  | .hbm, ⟨102, _⟩ => ⟨S131072x128, .f32⟩
  | .hbm, ⟨103, _⟩ => ⟨S_, .f32⟩
  | .hbm, ⟨104, _⟩ => ⟨S131072x128, .f32⟩
  | .hbm, ⟨105, _⟩ => ⟨S131072x128, .f32⟩
  | .hbm, ⟨106, _⟩ => ⟨S1x128x128, .f32⟩
  | .hbm, ⟨107, _⟩ => ⟨S128x128, .f32⟩
  | .hbm, ⟨108, _⟩ => ⟨S131072x128, .f32⟩
  | .hbm, ⟨109, _⟩ => ⟨S131072x128, .f32⟩
  | .hbm, ⟨110, _⟩ => ⟨S1x128x128, .f32⟩
  | .hbm, ⟨111, _⟩ => ⟨S128x128, .f32⟩
  | .hbm, ⟨112, _⟩ => ⟨S131072x128, .f32⟩
  | .hbm, ⟨113, _⟩ => ⟨S131072x128, .f32⟩
  | .hbm, ⟨114, _⟩ => ⟨S1x1x128, .f32⟩
  | .hbm, ⟨115, _⟩ => ⟨S1x128, .f32⟩
  | .hbm, ⟨116, _⟩ => ⟨S131072x128, .f32⟩
  | .hbm, ⟨117, _⟩ => ⟨S131072x128, .f32⟩
  | .hbm, ⟨118, _⟩ => ⟨S131072x128, .f32⟩
  | .hbm, ⟨119, _⟩ => ⟨S131072x128, .f32⟩
  | .hbm, ⟨120, _⟩ => ⟨S_, .f32⟩
  | .hbm, ⟨121, _⟩ => ⟨S131072x128, .f32⟩
  | .hbm, ⟨122, _⟩ => ⟨S131072x128, .f32⟩
  | .hbm, ⟨123, _⟩ => ⟨S131072x128, .f32⟩
  | .hbm, ⟨124, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call0_cst : Ref sig .tc := ⟨.hbm, 65, rfl⟩
abbrev main_call0_v0 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_4 : Ref sig .tc := ⟨.hbm, 81, rfl⟩
abbrev main_v67 : Ref sig .tc := ⟨.hbm, 82, rfl⟩
abbrev main_v68 : Ref sig .tc := ⟨.hbm, 83, rfl⟩
abbrev main_cst_5 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_6 : Ref sig .tc := ⟨.hbm, 100, rfl⟩
abbrev main_v84 : Ref sig .tc := ⟨.hbm, 101, rfl⟩
abbrev main_v85 : Ref sig .tc := ⟨.hbm, 102, rfl⟩
abbrev main_cst_7 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_8 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S6x128x128_S1x128x128_0_0_0 : S6x128x128.Slices ![0, 0, 0] S1x128x128
  slices_S6x1x128_S1x1x128_0_0_0 : S6x1x128.Slices ![0, 0, 0] S1x1x128
  shapeCasts_S1x1x128_S1x128 : S1x1x128.ShapeCasts S1x128
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  slices_S3x128x128_S1x128x128_1_0_0 : S3x128x128.Slices ![1, 0, 0] S1x128x128
  slices_S6x128x128_S1x128x128_1_0_0 : S6x128x128.Slices ![1, 0, 0] S1x128x128
  slices_S6x1x128_S1x1x128_1_0_0 : S6x1x128.Slices ![1, 0, 0] S1x1x128
  slices_S3x128x128_S1x128x128_2_0_0 : S3x128x128.Slices ![2, 0, 0] S1x128x128
  slices_S6x128x128_S1x128x128_2_0_0 : S6x128x128.Slices ![2, 0, 0] S1x128x128
  slices_S6x1x128_S1x1x128_2_0_0 : S6x1x128.Slices ![2, 0, 0] S1x1x128
  slices_S6x128x128_S1x128x128_4_0_0 : S6x128x128.Slices ![4, 0, 0] S1x128x128
  slices_S6x1x128_S1x1x128_4_0_0 : S6x1x128.Slices ![4, 0, 0] S1x1x128
  slices_S6x128x128_S1x128x128_5_0_0 : S6x128x128.Slices ![5, 0, 0] S1x128x128
  slices_S6x1x128_S1x1x128_5_0_0 : S6x1x128.Slices ![5, 0, 0] S1x1x128
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.FrameBits.lean ====
import proofs.«102413_j24713241821345_2_alg».proof.Proof.Gen.Kernel.Launch
import proofs.«102413_j24713241821345_2_alg».proof.Proof.Gen.Kernel.Skeleton
import proofs.«102413_j24713241821345_2_alg».proof.Proof.Gen.Kernel.Points
import Idealize.ShloMosaic.Lib.Pipeline.FrameBody
import Idealize.ShloMosaic.Lib.Ring
import Idealize.ShloMosaic.Lib.Tactic

/-!
# The program runs, faults nowhere and leaves its arguments as they were

The program is fifty host operations that build seven weight and bias arrays out of the argument arrays, and then one
pipelined call over 64 grid points. At grid point `t` the body is handed rows `2048 t … 2048 t + 2047` of the first two
arguments and the seven built arrays whole; it reads those nine blocks, computes one `[2048, 128]` block from them and
stores it whole into its output buffer, which the pipeline writes back to rows `2048 t …` of the result. Nothing is carried
from one point to the next, so what a point leaves in the output buffer is a function of the nine blocks at that point
alone (`stored`).

Stated for any float instance: the arithmetic is never opened here.
-/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- What core `c`'s buffers hold when the call is entered: the launch contents after the fifty host operations. -/
abbrev entry (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is those host operations followed by the call. -/
theorem entry_run (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] (show List.Forall _ [hostOps0] from hostOps0_sub)
    (show List.Forall _ [hostOps0] from hostOps0_fresh) main_chain

/-- No host operation writes argument 0: the call finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the call finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the call finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the call finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the call finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the call finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the call finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks the body is handed -/

/-- Window `w`'s block at point `t`, read off its array as the call finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current buffer holds its block at every point, whether the pipeline fetched it there or kept it. -/
theorem staged0_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- Input window 1's current buffer holds its block at every point, whether the pipeline fetched it there or kept it. -/
theorem staged1_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- Input window 2's current buffer holds its block at every point, whether the pipeline fetched it there or kept it. -/
theorem staged2_of {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- Input window 3's current buffer holds its block at every point, whether the pipeline fetched it there or kept it. -/
theorem staged3_of {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- Input window 4's current buffer holds its block at every point, whether the pipeline fetched it there or kept it. -/
theorem staged4_of {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)
/-- Input window 5's current buffer holds its block at every point, whether the pipeline fetched it there or kept it. -/
theorem staged5_of {c : Dev nD} (dat : Dat τ (Elt F) Unit ℕ (UR sig nD τ) ℕ cfg0 c) (hA : dat.A 5 = entry m c (Pipeline.arrRef spec0 5))
    (hafter : ∀ t, dat.after 5 t = block m c 5 t) (t : Fin cfg0.N) (d) : dat.before 5 t d = block m c 5 t :=
  (dat.before_in_eq_fetched 5 rfl (fun _ => rfl) (fun _ _ _ => rfl) (fun t => by rw [hafter]; unfold Dat.blockOf block; rw [hA]; try rfl) t d).trans
    (by unfold Dat.fetched Dat.blockOf block; rw [hA]; try rfl)
/-- Input window 6's current buffer holds its block at every point, whether the pipeline fetched it there or kept it. -/
theorem staged6_of {c : Dev nD} (dat : Dat τ (Elt F) Unit ℕ (UR sig nD τ) ℕ cfg0 c) (hA : dat.A 6 = entry m c (Pipeline.arrRef spec0 6))
    (hafter : ∀ t, dat.after 6 t = block m c 6 t) (t : Fin cfg0.N) (d) : dat.before 6 t d = block m c 6 t :=
  (dat.before_in_eq_fetched 6 rfl (fun _ => rfl) (fun _ _ _ => rfl) (fun t => by rw [hafter]; unfold Dat.blockOf block; rw [hA]; try rfl) t d).trans
    (by unfold Dat.fetched Dat.blockOf block; rw [hA]; try rfl)
/-- Input window 7's current buffer holds its block at every point, whether the pipeline fetched it there or kept it. -/
theorem staged7_of {c : Dev nD} (dat : Dat τ (Elt F) Unit ℕ (UR sig nD τ) ℕ cfg0 c) (hA : dat.A 7 = entry m c (Pipeline.arrRef spec0 7))
    (hafter : ∀ t, dat.after 7 t = block m c 7 t) (t : Fin cfg0.N) (d) : dat.before 7 t d = block m c 7 t :=
  (dat.before_in_eq_fetched 7 rfl (fun _ => rfl) (fun _ _ _ => rfl) (fun t => by rw [hafter]; unfold Dat.blockOf block; rw [hA]; try rfl) t d).trans
    (by unfold Dat.fetched Dat.blockOf block; rw [hA]; try rfl)
/-- Input window 8's current buffer holds its block at every point, whether the pipeline fetched it there or kept it. -/
theorem staged8_of {c : Dev nD} (dat : Dat τ (Elt F) Unit ℕ (UR sig nD τ) ℕ cfg0 c) (hA : dat.A 8 = entry m c (Pipeline.arrRef spec0 8))
    (hafter : ∀ t, dat.after 8 t = block m c 8 t) (t : Fin cfg0.N) (d) : dat.before 8 t d = block m c 8 t :=
  (dat.before_in_eq_fetched 8 rfl (fun _ => rfl) (fun _ _ _ => rfl) (fun t => by rw [hafter]; unfold Dat.blockOf block; rw [hA]; try rfl) t d).trans
    (by unfold Dat.fetched Dat.blockOf block; rw [hA]; try rfl)

/-! ## From a run of the pipeline to the arguments kept -/

/-- A run that ends with every window's array at what the pipeline's data say, and every other buffer as the call found
    it, leaves the seven arguments as launched: the first two are input windows' arrays, never written back; the other
    five are read by host operations only. -/
theorem args_kept (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c)⟩) h

/-! ## What the body leaves in its output buffer -/

abbrev rX : Rect S2048x128 := Rect.unit (s := S2048x128) ![0, 0] S2048x128.size inb_S2048x128_S2048x128_0_0
abbrev rW : Rect S256x384 := Rect.unit (s := S256x384) ![0, 0] S256x384.size inb_S256x384_S256x384_0_0
abbrev rM : Rect S128x128 := Rect.unit (s := S128x128) ![0, 0] S128x128.size inb_S128x128_S128x128_0_0
abbrev rB : Rect S1x384 := Rect.unit (s := S1x384) ![0, 0] S1x384.size inb_S1x384_S1x384_0_0

/-- The output buffer after the body, from the nine input blocks: its one store, of the body's arithmetic on the blocks. -/
def stored (x0 : Vec F S2048x128 .f32) (x1 : Vec F S2048x128 .f32) (x2 : Vec F S256x384 .bf16) (x3 : Vec F S256x384 .bf16) (x4 : Vec F S128x128 .bf16) (x5 : Vec F S128x128 .bf16) (x6 : Vec F S128x128 .bf16) (x7 : Vec F S1x384 .f32) (x8 : Vec F S1x384 .f32) : Vec F S2048x128 .f32 :=
  View.canon [⟨rX, k0_pay1 (k0_pay2 (View.ld x3 rW)) (k0_pay3 (View.ld x5 rM)) (k0_pay4 (View.ld x6 rM)) (k0_pay5 (View.ld x8 rB)) (k0_pay6 (View.ld x0 rX) (View.ld x1 rX) (View.ld x2 rW) (View.ld x4 rM) (View.ld x7 rB)) (k0_pay7 (View.ld x0 rX) (View.ld x1 rX) (View.ld x2 rW) (View.ld x4 rM) (View.ld x7 rB))⟩]

/-- The one store covers the buffer. -/
theorem stored_covers (p0 : Vec F S2048x128 .f32) (y : S2048x128.Idx) :
    ∃ pc ∈ ([⟨rX, p0⟩] : List (View.Piece (Elt F) S2048x128 .f32)), y ∈ pc.1.set :=
  View.cover_of_tiled [⟨rX, p0⟩] S2048x128.size (by rfl) y

/-! ## The body -/

set_option maxHeartbeats 4000000 in
/-- The body on whole buffers, the nine inputs' at contents `x0 … x8` and the output's at anything, runs to the end with the
    inputs' as they were and the output's at `stored` of them. -/
theorem body_triple (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S256x384 .bf16) (harg3 : arg3.IsWhole) (arg4 : Memref sig .tc .vmem S256x384 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S2048x128 .f32) (harg10 : arg10.IsWhole)
    (x0 : Vec F S2048x128 .f32) (x1 : Vec F S2048x128 .f32) (x2 : Vec F S256x384 .bf16) (x3 : Vec F S256x384 .bf16) (x4 : Vec F S128x128 .bf16) (x5 : Vec F S128x128 .bf16) (x6 : Vec F S128x128 .bf16) (x7 : Vec F S1x384 .f32) (x8 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (stored x0 x1 x2 x3 x4 x5 x6 x7 x8)) -∗ K ⟨⟩))
      ⊢ wp frame (wpE (defs₀ (F := F)) Variants.none c none) E (cc0__double_gru_kernel i arg1 harg1 arg2 harg2 arg3 harg3 arg4 harg4 arg5 harg5 arg6 harg6 arg7 harg7 arg8 harg8 arg9 harg9 arg10 harg10) K := by
  simp only [cc0__double_gru_kernel_eq_skeleton]; unfold cc0__double_gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (stored_covers _)

/-! ## The pipeline's data -/

/-- On core `c`: the arrays as the call finds them; after the body at point `t` each input's buffer still at its block and
    the output's at `stored` of the nine blocks; nothing else is held, nothing is owed. -/
def pdata (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => block m c 6 t
    | ⟨7, _⟩ => block m c 7 t
    | ⟨8, _⟩ => block m c 8 t
    | ⟨9, _⟩ => stored (block m c 0 t) (block m c 1 t) (block m c 2 t) (block m c 3 t) (block m c 4 t) (block m c 5 t) (block m c 6 t) (block m c 7 t) (block m c 8 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after0 (c : Dev nD) (t : Fin cfg0.N) : (pdata m 0 c).after 0 t = block m c 0 t := by dsimp only [pdata]
theorem after1 (c : Dev nD) (t : Fin cfg0.N) : (pdata m 0 c).after 1 t = block m c 1 t := by dsimp only [pdata]
theorem after2 (c : Dev nD) (t : Fin cfg0.N) : (pdata m 0 c).after 2 t = block m c 2 t := by dsimp only [pdata]
theorem after3 (c : Dev nD) (t : Fin cfg0.N) : (pdata m 0 c).after 3 t = block m c 3 t := by dsimp only [pdata]
theorem after4 (c : Dev nD) (t : Fin cfg0.N) : (pdata m 0 c).after 4 t = block m c 4 t := by dsimp only [pdata]
theorem after5 (c : Dev nD) (t : Fin cfg0.N) : (pdata m 0 c).after 5 t = block m c 5 t := by dsimp only [pdata]
theorem after6 (c : Dev nD) (t : Fin cfg0.N) : (pdata m 0 c).after 6 t = block m c 6 t := by dsimp only [pdata]
theorem after7 (c : Dev nD) (t : Fin cfg0.N) : (pdata m 0 c).after 7 t = block m c 7 t := by dsimp only [pdata]
theorem after8 (c : Dev nD) (t : Fin cfg0.N) : (pdata m 0 c).after 8 t = block m c 8 t := by dsimp only [pdata]
theorem after9 (c : Dev nD) (t : Fin cfg0.N) : (pdata m 0 c).after 9 t = stored (block m c 0 t) (block m c 1 t) (block m c 2 t) (block m c 3 t) (block m c 4 t) (block m c 5 t) (block m c 6 t) (block m c 7 t) (block m c 8 t) := by dsimp only [pdata]

theorem staged0 (c : Dev nD) (t : Fin cfg0.N) (d) : (pdata m 0 c).before 0 t d = block m c 0 t :=
  staged0_of m (pdata m 0 c) (pdata_A m c 0) (after0 m c) t d
theorem staged1 (c : Dev nD) (t : Fin cfg0.N) (d) : (pdata m 0 c).before 1 t d = block m c 1 t :=
  staged1_of m (pdata m 0 c) (pdata_A m c 1) (after1 m c) t d
theorem staged2 (c : Dev nD) (t : Fin cfg0.N) (d) : (pdata m 0 c).before 2 t d = block m c 2 t :=
  staged2_of m (pdata m 0 c) (pdata_A m c 2) (after2 m c) t d
theorem staged3 (c : Dev nD) (t : Fin cfg0.N) (d) : (pdata m 0 c).before 3 t d = block m c 3 t :=
  staged3_of m (pdata m 0 c) (pdata_A m c 3) (after3 m c) t d
theorem staged4 (c : Dev nD) (t : Fin cfg0.N) (d) : (pdata m 0 c).before 4 t d = block m c 4 t :=
  staged4_of m (pdata m 0 c) (pdata_A m c 4) (after4 m c) t d
theorem staged5 (c : Dev nD) (t : Fin cfg0.N) (d) : (pdata m 0 c).before 5 t d = block m c 5 t :=
  staged5_of m (pdata m 0 c) (pdata_A m c 5) (after5 m c) t d
theorem staged6 (c : Dev nD) (t : Fin cfg0.N) (d) : (pdata m 0 c).before 6 t d = block m c 6 t :=
  staged6_of m (pdata m 0 c) (pdata_A m c 6) (after6 m c) t d
theorem staged7 (c : Dev nD) (t : Fin cfg0.N) (d) : (pdata m 0 c).before 7 t d = block m c 7 t :=
  staged7_of m (pdata m 0 c) (pdata_A m c 7) (after7 m c) t d
theorem staged8 (c : Dev nD) (t : Fin cfg0.N) (d) : (pdata m 0 c).before 8 t d = block m c 8 t :=
  staged8_of m (pdata m 0 c) (pdata_A m c 8) (after8 m c) t d

/-! ## The body at a grid point -/

/-- What the body is called with at point `t`, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d))
    ∗ (∃ d, owns (c : Thread nD τ) (st0_8 t) fullShare ((pdata m 0 c).before 8 t d))
    ∗ (∃ d, owns (c : Thread nD τ) (st0_9 t) fullShare ((pdata m 0 c).before 9 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t)
    ∗ owns (c : Thread nD τ) (st0_8 t) fullShare ((pdata m 0 c).after 8 t)
    ∗ owns (c : Thread nD τ) (st0_9 t) fullShare ((pdata m 0 c).after 9 t))

set_option maxHeartbeats 2000000 in
/-- At every point the inputs' buffers hold their blocks, so the body's triple applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6, staged7, staged8]
  rw [show (pdata m 0 c).Φ t.succ = (pdata m 0 c).Φ t.castSucc from rfl,
    show (pdata m 0 c).owesAt () t.succ = (pdata m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid0.coords t) _ _ _ _ _ _ _ _ _ _ _ _ _ _ _ _ _ _ _ _ (block m c 0 t) (block m c 1 t) (block m c 2 t) (block m c 3 t) (block m c 4 t) (block m c 5 t) (block m c 6 t) (block m c 7 t) (block m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on the body, at every point. -/
theorem body_obligation (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program terminates, and ends with every
    window's array at what the pipeline's data say and every other buffer as the call found it. -/
theorem run_main : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entry m) (hmain := entry_run m Variants.none) (hA := pdata_A m) (hΦ := fun _ _ => rfl)

/-- The program runs to the end, faults nowhere, and its seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  args_kept m ρ (pdata m) (pdata_A m) (run_main m ρ)

end Cert.Kernel.Frame

end
-- ==== Proof.FrameIdeal.lean ====
import proofs.«102413_j24713241821345_2_alg».proof.Proof.Gen.KernelIdeal.Launch
import proofs.«102413_j24713241821345_2_alg».proof.Proof.Gen.KernelIdeal.Skeleton
import proofs.«102413_j24713241821345_2_alg».proof.Proof.Gen.KernelIdeal.Points
import Idealize.ShloMosaic.Lib.Pipeline.FrameBody
import Idealize.ShloMosaic.Lib.Ring
import Idealize.ShloMosaic.Lib.Tactic

/-!
# The program runs, faults nowhere and leaves its arguments as they were

The program is fifty host operations that build seven weight and bias arrays out of the argument arrays, and then one
pipelined call over 64 grid points. At grid point `t` the body is handed rows `2048 t … 2048 t + 2047` of the first two
arguments and the seven built arrays whole; it reads those nine blocks, computes one `[2048, 128]` block from them and
stores it whole into its output buffer, which the pipeline writes back to rows `2048 t …` of the result. Nothing is carried
from one point to the next, so what a point leaves in the output buffer is a function of the nine blocks at that point
alone (`stored`).

Stated for any float instance: the arithmetic is never opened here.
-/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- What core `c`'s buffers hold when the call is entered: the launch contents after the fifty host operations. -/
abbrev entry (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is those host operations followed by the call. -/
theorem entry_run (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] (show List.Forall _ [hostOps0] from hostOps0_sub)
    (show List.Forall _ [hostOps0] from hostOps0_fresh) main_chain

/-- No host operation writes argument 0: the call finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the call finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the call finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the call finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the call finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the call finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the call finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The blocks the body is handed -/

/-- Window `w`'s block at point `t`, read off its array as the call finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current buffer holds its block at every point, whether the pipeline fetched it there or kept it. -/
theorem staged0_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- Input window 1's current buffer holds its block at every point, whether the pipeline fetched it there or kept it. -/
theorem staged1_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- Input window 2's current buffer holds its block at every point, whether the pipeline fetched it there or kept it. -/
theorem staged2_of {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- Input window 3's current buffer holds its block at every point, whether the pipeline fetched it there or kept it. -/
theorem staged3_of {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- Input window 4's current buffer holds its block at every point, whether the pipeline fetched it there or kept it. -/
theorem staged4_of {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)
/-- Input window 5's current buffer holds its block at every point, whether the pipeline fetched it there or kept it. -/
theorem staged5_of {c : Dev nD} (dat : Dat τ (Elt F) Unit ℕ (UR sig nD τ) ℕ cfg0 c) (hA : dat.A 5 = entry m c (Pipeline.arrRef spec0 5))
    (hafter : ∀ t, dat.after 5 t = block m c 5 t) (t : Fin cfg0.N) (d) : dat.before 5 t d = block m c 5 t :=
  (dat.before_in_eq_fetched 5 rfl (fun _ => rfl) (fun _ _ _ => rfl) (fun t => by rw [hafter]; unfold Dat.blockOf block; rw [hA]; try rfl) t d).trans
    (by unfold Dat.fetched Dat.blockOf block; rw [hA]; try rfl)
/-- Input window 6's current buffer holds its block at every point, whether the pipeline fetched it there or kept it. -/
theorem staged6_of {c : Dev nD} (dat : Dat τ (Elt F) Unit ℕ (UR sig nD τ) ℕ cfg0 c) (hA : dat.A 6 = entry m c (Pipeline.arrRef spec0 6))
    (hafter : ∀ t, dat.after 6 t = block m c 6 t) (t : Fin cfg0.N) (d) : dat.before 6 t d = block m c 6 t :=
  (dat.before_in_eq_fetched 6 rfl (fun _ => rfl) (fun _ _ _ => rfl) (fun t => by rw [hafter]; unfold Dat.blockOf block; rw [hA]; try rfl) t d).trans
    (by unfold Dat.fetched Dat.blockOf block; rw [hA]; try rfl)
/-- Input window 7's current buffer holds its block at every point, whether the pipeline fetched it there or kept it. -/
theorem staged7_of {c : Dev nD} (dat : Dat τ (Elt F) Unit ℕ (UR sig nD τ) ℕ cfg0 c) (hA : dat.A 7 = entry m c (Pipeline.arrRef spec0 7))
    (hafter : ∀ t, dat.after 7 t = block m c 7 t) (t : Fin cfg0.N) (d) : dat.before 7 t d = block m c 7 t :=
  (dat.before_in_eq_fetched 7 rfl (fun _ => rfl) (fun _ _ _ => rfl) (fun t => by rw [hafter]; unfold Dat.blockOf block; rw [hA]; try rfl) t d).trans
    (by unfold Dat.fetched Dat.blockOf block; rw [hA]; try rfl)
/-- Input window 8's current buffer holds its block at every point, whether the pipeline fetched it there or kept it. -/
theorem staged8_of {c : Dev nD} (dat : Dat τ (Elt F) Unit ℕ (UR sig nD τ) ℕ cfg0 c) (hA : dat.A 8 = entry m c (Pipeline.arrRef spec0 8))
    (hafter : ∀ t, dat.after 8 t = block m c 8 t) (t : Fin cfg0.N) (d) : dat.before 8 t d = block m c 8 t :=
  (dat.before_in_eq_fetched 8 rfl (fun _ => rfl) (fun _ _ _ => rfl) (fun t => by rw [hafter]; unfold Dat.blockOf block; rw [hA]; try rfl) t d).trans
    (by unfold Dat.fetched Dat.blockOf block; rw [hA]; try rfl)

/-! ## From a run of the pipeline to the arguments kept -/

/-- A run that ends with every window's array at what the pipeline's data say, and every other buffer as the call found
    it, leaves the seven arguments as launched: the first two are input windows' arrays, never written back; the other
    five are read by host operations only. -/
theorem args_kept (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c)⟩) h

/-! ## What the body leaves in its output buffer -/

abbrev rX : Rect S2048x128 := Rect.unit (s := S2048x128) ![0, 0] S2048x128.size inb_S2048x128_S2048x128_0_0
abbrev rW : Rect S256x384 := Rect.unit (s := S256x384) ![0, 0] S256x384.size inb_S256x384_S256x384_0_0
abbrev rM : Rect S128x128 := Rect.unit (s := S128x128) ![0, 0] S128x128.size inb_S128x128_S128x128_0_0
abbrev rB : Rect S1x384 := Rect.unit (s := S1x384) ![0, 0] S1x384.size inb_S1x384_S1x384_0_0

/-- The output buffer after the body, from the nine input blocks: its one store, of the body's arithmetic on the blocks. -/
def stored (x0 : Vec F S2048x128 .f32) (x1 : Vec F S2048x128 .f32) (x2 : Vec F S256x384 .bf16) (x3 : Vec F S256x384 .bf16) (x4 : Vec F S128x128 .bf16) (x5 : Vec F S128x128 .bf16) (x6 : Vec F S128x128 .bf16) (x7 : Vec F S1x384 .f32) (x8 : Vec F S1x384 .f32) : Vec F S2048x128 .f32 :=
  View.canon [⟨rX, k0_pay1 (k0_pay2 (View.ld x3 rW)) (k0_pay3 (View.ld x5 rM)) (k0_pay4 (View.ld x6 rM)) (k0_pay5 (View.ld x8 rB)) (k0_pay6 (View.ld x0 rX) (View.ld x1 rX) (View.ld x2 rW) (View.ld x4 rM) (View.ld x7 rB)) (k0_pay7 (View.ld x0 rX) (View.ld x1 rX) (View.ld x2 rW) (View.ld x4 rM) (View.ld x7 rB))⟩]

/-- The one store covers the buffer. -/
theorem stored_covers (p0 : Vec F S2048x128 .f32) (y : S2048x128.Idx) :
    ∃ pc ∈ ([⟨rX, p0⟩] : List (View.Piece (Elt F) S2048x128 .f32)), y ∈ pc.1.set :=
  View.cover_of_tiled [⟨rX, p0⟩] S2048x128.size (by rfl) y

/-! ## The body -/

set_option maxHeartbeats 4000000 in
/-- The body on whole buffers, the nine inputs' at contents `x0 … x8` and the output's at anything, runs to the end with the
    inputs' as they were and the output's at `stored` of them. -/
theorem body_triple (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S256x384 .bf16) (harg3 : arg3.IsWhole) (arg4 : Memref sig .tc .vmem S256x384 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S2048x128 .f32) (harg10 : arg10.IsWhole)
    (x0 : Vec F S2048x128 .f32) (x1 : Vec F S2048x128 .f32) (x2 : Vec F S256x384 .bf16) (x3 : Vec F S256x384 .bf16) (x4 : Vec F S128x128 .bf16) (x5 : Vec F S128x128 .bf16) (x6 : Vec F S128x128 .bf16) (x7 : Vec F S1x384 .f32) (x8 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (stored x0 x1 x2 x3 x4 x5 x6 x7 x8)) -∗ K ⟨⟩))
      ⊢ wp frame (wpE (defs₀ (F := F)) Variants.none c none) E (cc0__double_gru_kernel i arg1 harg1 arg2 harg2 arg3 harg3 arg4 harg4 arg5 harg5 arg6 harg6 arg7 harg7 arg8 harg8 arg9 harg9 arg10 harg10) K := by
  simp only [cc0__double_gru_kernel_eq_skeleton]; unfold cc0__double_gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (stored_covers _)

/-! ## The pipeline's data -/

/-- On core `c`: the arrays as the call finds them; after the body at point `t` each input's buffer still at its block and
    the output's at `stored` of the nine blocks; nothing else is held, nothing is owed. -/
def pdata (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => block m c 6 t
    | ⟨7, _⟩ => block m c 7 t
    | ⟨8, _⟩ => block m c 8 t
    | ⟨9, _⟩ => stored (block m c 0 t) (block m c 1 t) (block m c 2 t) (block m c 3 t) (block m c 4 t) (block m c 5 t) (block m c 6 t) (block m c 7 t) (block m c 8 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after0 (c : Dev nD) (t : Fin cfg0.N) : (pdata m 0 c).after 0 t = block m c 0 t := by dsimp only [pdata]
theorem after1 (c : Dev nD) (t : Fin cfg0.N) : (pdata m 0 c).after 1 t = block m c 1 t := by dsimp only [pdata]
theorem after2 (c : Dev nD) (t : Fin cfg0.N) : (pdata m 0 c).after 2 t = block m c 2 t := by dsimp only [pdata]
theorem after3 (c : Dev nD) (t : Fin cfg0.N) : (pdata m 0 c).after 3 t = block m c 3 t := by dsimp only [pdata]
theorem after4 (c : Dev nD) (t : Fin cfg0.N) : (pdata m 0 c).after 4 t = block m c 4 t := by dsimp only [pdata]
theorem after5 (c : Dev nD) (t : Fin cfg0.N) : (pdata m 0 c).after 5 t = block m c 5 t := by dsimp only [pdata]
theorem after6 (c : Dev nD) (t : Fin cfg0.N) : (pdata m 0 c).after 6 t = block m c 6 t := by dsimp only [pdata]
theorem after7 (c : Dev nD) (t : Fin cfg0.N) : (pdata m 0 c).after 7 t = block m c 7 t := by dsimp only [pdata]
theorem after8 (c : Dev nD) (t : Fin cfg0.N) : (pdata m 0 c).after 8 t = block m c 8 t := by dsimp only [pdata]
theorem after9 (c : Dev nD) (t : Fin cfg0.N) : (pdata m 0 c).after 9 t = stored (block m c 0 t) (block m c 1 t) (block m c 2 t) (block m c 3 t) (block m c 4 t) (block m c 5 t) (block m c 6 t) (block m c 7 t) (block m c 8 t) := by dsimp only [pdata]

theorem staged0 (c : Dev nD) (t : Fin cfg0.N) (d) : (pdata m 0 c).before 0 t d = block m c 0 t :=
  staged0_of m (pdata m 0 c) (pdata_A m c 0) (after0 m c) t d
theorem staged1 (c : Dev nD) (t : Fin cfg0.N) (d) : (pdata m 0 c).before 1 t d = block m c 1 t :=
  staged1_of m (pdata m 0 c) (pdata_A m c 1) (after1 m c) t d
theorem staged2 (c : Dev nD) (t : Fin cfg0.N) (d) : (pdata m 0 c).before 2 t d = block m c 2 t :=
  staged2_of m (pdata m 0 c) (pdata_A m c 2) (after2 m c) t d
theorem staged3 (c : Dev nD) (t : Fin cfg0.N) (d) : (pdata m 0 c).before 3 t d = block m c 3 t :=
  staged3_of m (pdata m 0 c) (pdata_A m c 3) (after3 m c) t d
theorem staged4 (c : Dev nD) (t : Fin cfg0.N) (d) : (pdata m 0 c).before 4 t d = block m c 4 t :=
  staged4_of m (pdata m 0 c) (pdata_A m c 4) (after4 m c) t d
theorem staged5 (c : Dev nD) (t : Fin cfg0.N) (d) : (pdata m 0 c).before 5 t d = block m c 5 t :=
  staged5_of m (pdata m 0 c) (pdata_A m c 5) (after5 m c) t d
theorem staged6 (c : Dev nD) (t : Fin cfg0.N) (d) : (pdata m 0 c).before 6 t d = block m c 6 t :=
  staged6_of m (pdata m 0 c) (pdata_A m c 6) (after6 m c) t d
theorem staged7 (c : Dev nD) (t : Fin cfg0.N) (d) : (pdata m 0 c).before 7 t d = block m c 7 t :=
  staged7_of m (pdata m 0 c) (pdata_A m c 7) (after7 m c) t d
theorem staged8 (c : Dev nD) (t : Fin cfg0.N) (d) : (pdata m 0 c).before 8 t d = block m c 8 t :=
  staged8_of m (pdata m 0 c) (pdata_A m c 8) (after8 m c) t d

/-! ## The body at a grid point -/

/-- What the body is called with at point `t`, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d))
    ∗ (∃ d, owns (c : Thread nD τ) (st0_8 t) fullShare ((pdata m 0 c).before 8 t d))
    ∗ (∃ d, owns (c : Thread nD τ) (st0_9 t) fullShare ((pdata m 0 c).before 9 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t)
    ∗ owns (c : Thread nD τ) (st0_8 t) fullShare ((pdata m 0 c).after 8 t)
    ∗ owns (c : Thread nD τ) (st0_9 t) fullShare ((pdata m 0 c).after 9 t))

set_option maxHeartbeats 2000000 in
/-- At every point the inputs' buffers hold their blocks, so the body's triple applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6, staged7, staged8]
  rw [show (pdata m 0 c).Φ t.succ = (pdata m 0 c).Φ t.castSucc from rfl,
    show (pdata m 0 c).owesAt () t.succ = (pdata m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid0.coords t) _ _ _ _ _ _ _ _ _ _ _ _ _ _ _ _ _ _ _ _ (block m c 0 t) (block m c 1 t) (block m c 2 t) (block m c 3 t) (block m c 4 t) (block m c 5 t) (block m c 6 t) (block m c 7 t) (block m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on the body, at every point. -/
theorem body_obligation (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program terminates, and ends with every
    window's array at what the pipeline's data say and every other buffer as the call found it. -/
theorem run_main : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entry m) (hmain := entry_run m Variants.none) (hA := pdata_A m) (hΦ := fun _ _ => rfl)

/-- The program runs to the end, faults nowhere, and its seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  args_kept m ρ (pdata m) (pdata_A m) (run_main m ρ)

end Cert.KernelIdeal.Frame

end
-- ==== Proof.HostTerms.lean ====
import proofs.«102413_j24713241821345_2_alg».proof.Proof.Gen.KernelIdeal

/-!
# What the host computes before the kernel is launched

The seven arrays the kernel's weight and bias windows read, as functions of the argument arrays: each weight stack is
converted to the short format; a plane of a stack is cut out and cast to a matrix; the first fused matrix is the three planes
of the first input stack side by side, over planes 0 and 1 of the state stack and a zero block side by side; the second is the
same from the second input stack and planes 0 and 4; the two remaining state matrices are planes 2 and 5; the fused bias rows
are rows 0, 1, 2 and rows 0, 4, 5 of the bias stack side by side.
-/

noncomputable section

namespace Cert.KernelIdeal.Host

open Idealize.ShloMosaic Cert.KernelIdeal Cert.KernelIdeal.Gen

variable {F : FTy → Type} [FloatOps F]

/-- Plane `o` of a converted three-plane stack, as a matrix. -/
def plane3 (o : ℕ) (hs : S3x128x128.Slices ![o, 0, 0] S1x128x128) (a : FVec F S3x128x128 .f32) : FVec F S128x128 .bf16 :=
  shapeCast S128x128 (extractStridedSlice S1x128x128 ![o, 0, 0] (truncf .bf16 a bitsLt_bf16_f32) hs) shapeCasts_S1x128x128_S128x128

/-- Plane `o` of the converted six-plane stack, as a matrix. -/
def plane6 (o : ℕ) (hs : S6x128x128.Slices ![o, 0, 0] S1x128x128) (a : FVec F S6x128x128 .f32) : FVec F S128x128 .bf16 :=
  shapeCast S128x128 (extractStridedSlice S1x128x128 ![o, 0, 0] (truncf .bf16 a bitsLt_bf16_f32) hs) shapeCasts_S1x128x128_S128x128

/-- Row `o` of the bias stack, as a one-row matrix. -/
def brow (o : ℕ) (hs : S6x1x128.Slices ![o, 0, 0] S1x1x128) (a : FVec F S6x1x128 .f32) : FVec F S1x128 .f32 :=
  shapeCast S1x128 (extractStridedSlice S1x1x128 ![o, 0, 0] a hs) shapeCasts_S1x1x128_S1x128

/-- The zero block. -/
def zeroBlock : FVec F S128x128 .bf16 := broadcastInDim S128x128 ![] bcast_S_S128x128 (constant S_ .bf16 0x0000#16)

/-- Three matrices side by side. -/
def side3 (p q r : FVec F S128x128 .bf16) : FVec F S128x384 .bf16 :=
  concatenate S128x384 1 [⟨S128x128, p⟩, ⟨S128x128, q⟩, ⟨S128x128, r⟩] concatenates_S128x128_S128x128_S128x128_S128x384_d1

/-- One wide matrix over another. -/
def over (p q : FVec F S128x384 .bf16) : FVec F S256x384 .bf16 :=
  concatenate S256x384 0 [⟨S128x384, p⟩, ⟨S128x384, q⟩] concatenates_S128x384_S128x384_S256x384_d0

/-- Three one-row matrices side by side. -/
def rows3 (p q r : FVec F S1x128 .f32) : FVec F S1x384 .f32 :=
  concatenate S1x384 1 [⟨S1x128, p⟩, ⟨S1x128, q⟩, ⟨S1x128, r⟩] concatenates_S1x128_S1x128_S1x128_S1x384_d1

/-- The first fused matrix. -/
def w1f (a2 : FVec F S3x128x128 .f32) (a4 : FVec F S6x128x128 .f32) : FVec F S256x384 .bf16 :=
  over (side3 (plane3 0 slices_S3x128x128_S1x128x128_0_0_0 a2) (plane3 1 slices_S3x128x128_S1x128x128_1_0_0 a2) (plane3 2 slices_S3x128x128_S1x128x128_2_0_0 a2))
    (side3 (plane6 0 slices_S6x128x128_S1x128x128_0_0_0 a4) (plane6 1 slices_S6x128x128_S1x128x128_1_0_0 a4) zeroBlock)

/-- The second fused matrix. -/
def w2f (a3 : FVec F S3x128x128 .f32) (a4 : FVec F S6x128x128 .f32) : FVec F S256x384 .bf16 :=
  over (side3 (plane3 0 slices_S3x128x128_S1x128x128_0_0_0 a3) (plane3 1 slices_S3x128x128_S1x128x128_1_0_0 a3) (plane3 2 slices_S3x128x128_S1x128x128_2_0_0 a3))
    (side3 (plane6 0 slices_S6x128x128_S1x128x128_0_0_0 a4) (plane6 4 slices_S6x128x128_S1x128x128_4_0_0 a4) zeroBlock)

/-- The state matrix of the first stage's candidate. -/
def wh2 (a4 : FVec F S6x128x128 .f32) : FVec F S128x128 .bf16 := plane6 2 slices_S6x128x128_S1x128x128_2_0_0 a4

/-- The state matrix of the second stage's candidate. -/
def wh5 (a4 : FVec F S6x128x128 .f32) : FVec F S128x128 .bf16 := plane6 5 slices_S6x128x128_S1x128x128_5_0_0 a4

/-- The middle matrix, converted. -/
def midb (a6 : FVec F S128x128 .f32) : FVec F S128x128 .bf16 := truncf .bf16 a6 bitsLt_bf16_f32

/-- The first fused bias row. -/
def b1f (a5 : FVec F S6x1x128 .f32) : FVec F S1x384 .f32 :=
  rows3 (brow 0 slices_S6x1x128_S1x1x128_0_0_0 a5) (brow 1 slices_S6x1x128_S1x1x128_1_0_0 a5) (brow 2 slices_S6x1x128_S1x1x128_2_0_0 a5)

/-- The second fused bias row. -/
def b2f (a5 : FVec F S6x1x128 .f32) : FVec F S1x384 .f32 :=
  rows3 (brow 0 slices_S6x1x128_S1x1x128_0_0_0 a5) (brow 4 slices_S6x1x128_S1x1x128_4_0_0 a5) (brow 5 slices_S6x1x128_S1x1x128_5_0_0 a5)

end Cert.KernelIdeal.Host

end
-- ==== Proof.BlockValue.lean ====
import proofs.«102413_j24713241821345_2_alg».proof.Proof.FrameIdeal
import proofs.«102413_j24713241821345_2_alg».proof.Proof.HostTerms
import Idealize.ShloMosaic.Lib.Pipeline.Value
import Idealize.ShloMosaic.Lib.ValueIdx
import Idealize.ShloMosaic.Lib.StableHlo.Run

/-!
# The arrays the call finds and the blocks its body is handed, over the extended reals

When the one pipelined call is entered, the seven arrays the host built are the pure terms of the argument arrays: the two
fused matrices, the two remaining state matrices, the converted middle matrix and the two fused bias rows. At grid point
`t` the body is handed rows `2048 t … 2048 t + 2047` of the first two arguments and those seven arrays whole; the block
it stores lands on rows `2048 t …` of the result, and the 64 blocks cover the result.
-/

noncomputable section

namespace Cert.KernelIdeal.BlockValue

open Cert.KernelIdeal Cert.KernelIdeal.Gen Cert.KernelIdeal.Frame Cert.KernelIdeal.Host Idealize.ShloMosaic Idealize.ShloMosaic.TcCoe Idealize.SL.Sem Idealize.ShloMosaic.ValueIdx

variable (m : (ℓ : Loc nD τ sig) → Buf (Elt Ideal) ℓ)

/-! ## The seven built arrays when the call is entered -/

theorem entry_v17 (c : Dev nD) : (entry m c main_v17 : S256x384.Idx → Elt Ideal .bf16) = w1f (F := Ideal) (m ((c : Thread nD τ).loc main_arg2)) (m ((c : Thread nD τ).loc main_arg4)) := by
  dsimp only [entry]
  simp only [hostOps0, List.flatten_cons, List.flatten_nil, List.append_nil, List.cons_append, List.nil_append]
  after_results
  rfl

theorem entry_v30 (c : Dev nD) : (entry m c main_v30 : S256x384.Idx → Elt Ideal .bf16) = w2f (F := Ideal) (m ((c : Thread nD τ).loc main_arg3)) (m ((c : Thread nD τ).loc main_arg4)) := by
  dsimp only [entry]
  simp only [hostOps0, List.flatten_cons, List.flatten_nil, List.append_nil, List.cons_append, List.nil_append]
  after_results
  rfl

theorem entry_v32 (c : Dev nD) : (entry m c main_v32 : S128x128.Idx → Elt Ideal .bf16) = wh2 (F := Ideal) (m ((c : Thread nD τ).loc main_arg4)) := by
  dsimp only [entry]
  simp only [hostOps0, List.flatten_cons, List.flatten_nil, List.append_nil, List.cons_append, List.nil_append]
  after_results
  rfl

theorem entry_v34 (c : Dev nD) : (entry m c main_v34 : S128x128.Idx → Elt Ideal .bf16) = wh5 (F := Ideal) (m ((c : Thread nD τ).loc main_arg4)) := by
  dsimp only [entry]
  simp only [hostOps0, List.flatten_cons, List.flatten_nil, List.append_nil, List.cons_append, List.nil_append]
  after_results
  rfl

theorem entry_v3 (c : Dev nD) : (entry m c main_v3 : S128x128.Idx → Elt Ideal .bf16) = midb (F := Ideal) (m ((c : Thread nD τ).loc main_arg6)) := by
  dsimp only [entry]
  simp only [hostOps0, List.flatten_cons, List.flatten_nil, List.append_nil, List.cons_append, List.nil_append]
  after_results
  rfl

theorem entry_v41 (c : Dev nD) : (entry m c main_v41 : S1x384.Idx → Elt Ideal .f32) = b1f (F := Ideal) (m ((c : Thread nD τ).loc main_arg5)) := by
  dsimp only [entry]
  simp only [hostOps0, List.flatten_cons, List.flatten_nil, List.append_nil, List.cons_append, List.nil_append]
  after_results
  rfl

theorem entry_v48 (c : Dev nD) : (entry m c main_v48 : S1x384.Idx → Elt Ideal .f32) = b2f (F := Ideal) (m ((c : Thread nD τ).loc main_arg5)) := by
  dsimp only [entry]
  simp only [hostOps0, List.flatten_cons, List.flatten_nil, List.append_nil, List.cons_append, List.nil_append]
  after_results
  rfl

/-! ## The index maps, decided once over the grid -/

/-- Windows 0, 1 and 9 move down one block of rows per grid point; windows 2 to 8 stay on block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The batch row a block row is -/

/-- Row `q` of the block at grid point `t` is batch row `2048 t + q`. -/
def rowOf (t : Fin cfg0.N) (q : Fin 2048) : Fin 131072 :=
  ⟨t.val * 2048 + q.val, by have := t.isLt; have hN : cfg0.N = 64 := N_0; have := q.isLt; omega⟩

theorem rowOf_val (t : Fin cfg0.N) (q : Fin 2048) : (rowOf t q).val = t.val * 2048 + q.val := rfl

/-! ## The blocks the body is handed at a grid point -/

theorem block0_apply (c : Dev nD) (t : Fin cfg0.N) (q : Fin 2048) (k : Fin 128) : (block m c 0 t : Vec Ideal S2048x128 .f32) (ix2 q k) = (m ((c : Thread nD τ).loc main_arg0) : S131072x128.Idx → Elt Ideal .f32) (ix2 (rowOf t q) k) := by
  obtain ⟨h0, h1, -⟩ := idx_facts t
  unfold block
  rw [View.read_apply]
  show entry m c main_arg0 _ = _
  rw [entry_arg0]
  congr 1
  funext a
  apply Fin.ext
  match a with
  | ⟨0, _⟩ => show win0_0.index t 0 * 2048 + 1 * q.val = t.val * 2048 + q.val; rw [h0]; omega
  | ⟨1, _⟩ => show win0_0.index t 1 * 128 + 1 * k.val = k.val; rw [h1]; omega

theorem block1_apply (c : Dev nD) (t : Fin cfg0.N) (q : Fin 2048) (k : Fin 128) : (block m c 1 t : Vec Ideal S2048x128 .f32) (ix2 q k) = (m ((c : Thread nD τ).loc main_arg1) : S131072x128.Idx → Elt Ideal .f32) (ix2 (rowOf t q) k) := by
  obtain ⟨-, -, h0, h1, -⟩ := idx_facts t
  unfold block
  rw [View.read_apply]
  show entry m c main_arg1 _ = _
  rw [entry_arg1]
  congr 1
  funext a
  apply Fin.ext
  match a with
  | ⟨0, _⟩ => show win0_1.index t 0 * 2048 + 1 * q.val = t.val * 2048 + q.val; rw [h0]; omega
  | ⟨1, _⟩ => show win0_1.index t 1 * 128 + 1 * k.val = k.val; rw [h1]; omega

theorem block2_eq (c : Dev nD) (t : Fin cfg0.N) : (block m c 2 t : Vec Ideal S256x384 .bf16) = w1f (F := Ideal) (m ((c : Thread nD τ).loc main_arg2)) (m ((c : Thread nD τ).loc main_arg4)) := by
  obtain ⟨-, -, -, -, -, -, h0, h1, -⟩ := idx_facts t
  rw [← entry_v17 m c]
  funext y
  obtain ⟨p, q, rfl⟩ : ∃ (p : Fin 256) (q : Fin 384), y = ix2 p q := ⟨y 0, y 1, eq_ix2 y⟩
  unfold block
  rw [View.read_apply]
  show entry m c main_v17 _ = entry m c main_v17 _
  congr 1
  funext a
  apply Fin.ext
  match a with
  | ⟨0, _⟩ => show win0_2.index t 0 * 256 + 1 * p.val = p.val; rw [h0]; omega
  | ⟨1, _⟩ => show win0_2.index t 1 * 384 + 1 * q.val = q.val; rw [h1]; omega

theorem block3_eq (c : Dev nD) (t : Fin cfg0.N) : (block m c 3 t : Vec Ideal S256x384 .bf16) = w2f (F := Ideal) (m ((c : Thread nD τ).loc main_arg3)) (m ((c : Thread nD τ).loc main_arg4)) := by
  obtain ⟨-, -, -, -, -, -, -, -, h0, h1, -⟩ := idx_facts t
  rw [← entry_v30 m c]
  funext y
  obtain ⟨p, q, rfl⟩ : ∃ (p : Fin 256) (q : Fin 384), y = ix2 p q := ⟨y 0, y 1, eq_ix2 y⟩
  unfold block
  rw [View.read_apply]
  show entry m c main_v30 _ = entry m c main_v30 _
  congr 1
  funext a
  apply Fin.ext
  match a with
  | ⟨0, _⟩ => show win0_3.index t 0 * 256 + 1 * p.val = p.val; rw [h0]; omega
  | ⟨1, _⟩ => show win0_3.index t 1 * 384 + 1 * q.val = q.val; rw [h1]; omega

theorem block4_eq (c : Dev nD) (t : Fin cfg0.N) : (block m c 4 t : Vec Ideal S128x128 .bf16) = wh2 (F := Ideal) (m ((c : Thread nD τ).loc main_arg4)) := by
  obtain ⟨-, -, -, -, -, -, -, -, -, -, h0, h1, -⟩ := idx_facts t
  rw [← entry_v32 m c]
  funext y
  obtain ⟨p, q, rfl⟩ : ∃ (p : Fin 128) (q : Fin 128), y = ix2 p q := ⟨y 0, y 1, eq_ix2 y⟩
  unfold block
  rw [View.read_apply]
  show entry m c main_v32 _ = entry m c main_v32 _
  congr 1
  funext a
  apply Fin.ext
  match a with
  | ⟨0, _⟩ => show win0_4.index t 0 * 128 + 1 * p.val = p.val; rw [h0]; omega
  | ⟨1, _⟩ => show win0_4.index t 1 * 128 + 1 * q.val = q.val; rw [h1]; omega

theorem block5_eq (c : Dev nD) (t : Fin cfg0.N) : (block m c 5 t : Vec Ideal S128x128 .bf16) = wh5 (F := Ideal) (m ((c : Thread nD τ).loc main_arg4)) := by
  obtain ⟨-, -, -, -, -, -, -, -, -, -, -, -, h0, h1, -⟩ := idx_facts t
  rw [← entry_v34 m c]
  funext y
  obtain ⟨p, q, rfl⟩ : ∃ (p : Fin 128) (q : Fin 128), y = ix2 p q := ⟨y 0, y 1, eq_ix2 y⟩
  unfold block
  rw [View.read_apply]
  show entry m c main_v34 _ = entry m c main_v34 _
  congr 1
  funext a
  apply Fin.ext
  match a with
  | ⟨0, _⟩ => show win0_5.index t 0 * 128 + 1 * p.val = p.val; rw [h0]; omega
  | ⟨1, _⟩ => show win0_5.index t 1 * 128 + 1 * q.val = q.val; rw [h1]; omega

theorem block6_eq (c : Dev nD) (t : Fin cfg0.N) : (block m c 6 t : Vec Ideal S128x128 .bf16) = midb (F := Ideal) (m ((c : Thread nD τ).loc main_arg6)) := by
  obtain ⟨-, -, -, -, -, -, -, -, -, -, -, -, -, -, h0, h1, -⟩ := idx_facts t
  rw [← entry_v3 m c]
  funext y
  obtain ⟨p, q, rfl⟩ : ∃ (p : Fin 128) (q : Fin 128), y = ix2 p q := ⟨y 0, y 1, eq_ix2 y⟩
  unfold block
  rw [View.read_apply]
  show entry m c main_v3 _ = entry m c main_v3 _
  congr 1
  funext a
  apply Fin.ext
  match a with
  | ⟨0, _⟩ => show win0_6.index t 0 * 128 + 1 * p.val = p.val; rw [h0]; omega
  | ⟨1, _⟩ => show win0_6.index t 1 * 128 + 1 * q.val = q.val; rw [h1]; omega

theorem block7_eq (c : Dev nD) (t : Fin cfg0.N) : (block m c 7 t : Vec Ideal S1x384 .f32) = b1f (F := Ideal) (m ((c : Thread nD τ).loc main_arg5)) := by
  obtain ⟨-, -, -, -, -, -, -, -, -, -, -, -, -, -, -, -, h0, h1, -⟩ := idx_facts t
  rw [← entry_v41 m c]
  funext y
  obtain ⟨p, q, rfl⟩ : ∃ (p : Fin 1) (q : Fin 384), y = ix2 p q := ⟨y 0, y 1, eq_ix2 y⟩
  unfold block
  rw [View.read_apply]
  show entry m c main_v41 _ = entry m c main_v41 _
  congr 1
  funext a
  apply Fin.ext
  match a with
  | ⟨0, _⟩ => show win0_7.index t 0 * 1 + 1 * p.val = p.val; rw [h0]; omega
  | ⟨1, _⟩ => show win0_7.index t 1 * 384 + 1 * q.val = q.val; rw [h1]; omega

theorem block8_eq (c : Dev nD) (t : Fin cfg0.N) : (block m c 8 t : Vec Ideal S1x384 .f32) = b2f (F := Ideal) (m ((c : Thread nD τ).loc main_arg5)) := by
  obtain ⟨-, -, -, -, -, -, -, -, -, -, -, -, -, -, -, -, -, -, h0, h1⟩ := idx_facts t
  rw [← entry_v48 m c]
  funext y
  obtain ⟨p, q, rfl⟩ : ∃ (p : Fin 1) (q : Fin 384), y = ix2 p q := ⟨y 0, y 1, eq_ix2 y⟩
  unfold block
  rw [View.read_apply]
  show entry m c main_v48 _ = entry m c main_v48 _
  congr 1
  funext a
  apply Fin.ext
  match a with
  | ⟨0, _⟩ => show win0_8.index t 0 * 1 + 1 * p.val = p.val; rw [h0]; omega
  | ⟨1, _⟩ => show win0_8.index t 1 * 384 + 1 * q.val = q.val; rw [h1]; omega

/-! ## Where the output block lands, and that the blocks cover the result -/

theorem out_emb (t : Fin cfg0.N) (q : Fin 2048) (j : Fin 128) : (((cfg0.win 9).blk t).view.emb (ix2 q j) : S131072x128.Idx) = ix2 (rowOf t q) j := by
  obtain ⟨-, -, -, -, h0, h1, -⟩ := idx_facts t
  funext a
  apply Fin.ext
  match a with
  | ⟨0, _⟩ => show win0_9.index t 0 * 2048 + 1 * q.val = t.val * 2048 + q.val; rw [h0]; omega
  | ⟨1, _⟩ => show win0_9.index t 1 * 128 + 1 * j.val = j.val; rw [h1]; omega

theorem out_cover (i : S131072x128.Idx) : ∃ t : Fin cfg0.N, (cfg0.win 9).flush t = true ∧ i ∈ ((cfg0.win 9).blk t).view.set := by
  have hN : cfg0.N = 64 := N_0
  have hi0 : (i 0).val < 131072 := (i 0).isLt
  have hi1 : (i 1).val < 128 := (i 1).isLt
  have ht : (i 0).val / 2048 < cfg0.N := by rw [hN]; omega
  refine ⟨⟨(i 0).val / 2048, ht⟩, flush0_9 _, ?_⟩
  obtain ⟨-, -, -, -, h0, h1, -⟩ := idx_facts ⟨(i 0).val / 2048, ht⟩
  show i ∈ ((View.whole main_v49).slice (win0_9.rect ⟨(i 0).val / 2048, ht⟩)).set
  rw [View.set_slice_whole, Rect.mem_set_unit]
  intro a
  match a with
  | ⟨0, _⟩ =>
    show win0_9.index ⟨(i 0).val / 2048, ht⟩ 0 * 2048 ≤ (i 0).val ∧ (i 0).val < win0_9.index ⟨(i 0).val / 2048, ht⟩ 0 * 2048 + 2048
    rw [h0]
    show (i 0).val / 2048 * 2048 ≤ (i 0).val ∧ (i 0).val < (i 0).val / 2048 * 2048 + 2048
    omega
  | ⟨1, _⟩ =>
    show win0_9.index ⟨(i 0).val / 2048, ht⟩ 1 * 128 ≤ (i 1).val ∧ (i 1).val < win0_9.index ⟨(i 0).val / 2048, ht⟩ 1 * 128 + 128
    rw [h1]
    omega

end Cert.KernelIdeal.BlockValue

end
-- ==== Proof.Spec.lean ====
import Idealize.ShloMosaic.PureOps.Ideal
import Mathlib.Algebra.BigOperators.Fin

/-!
# The double gated cell on one batch row, over the extended reals

A row is a vector of 128 extended reals and a matrix is 128 by 128. One gated stage takes an input row `u`, a state row
`h`, three input matrices, three state matrices and three bias rows, and returns
`z * h + (1 - z) * tanh (u A2 + (r * h) B2 + c2)` with `z = σ (u A0 + h B0 + c0)` and `r = σ (u A1 + h B1 + c1)`.
The cell is two stages with a rectified product in between.

The same stage can be computed from one fused 256 by 384 matrix (the three input matrices side by side over the first two
state matrices and a zero block) and one fused bias row of 384 entries: each of the three pre-activations is then one
256-term dot product against a column band, and the third takes the product with `B2` afterwards. The two groupings
agree on every extended real: a 256-term sum is the sum of its two halves, a sum of products with zero is zero, and
addition is commutative and associative. No finiteness is used.
-/

noncomputable section

namespace Cert.Spec

open Idealize.ShloMosaic

abbrev Row := Fin 128 → EReal
abbrev Mat := Fin 128 → Fin 128 → EReal
abbrev Wide := Fin 256 → Fin 384 → EReal
abbrev WideRow := Fin 384 → EReal

/-- A row times a matrix. -/
def dot (u : Row) (W : Mat) : Row := fun j => ∑ k : Fin 128, u k * W k j

/-- The rectifier, entry by entry. -/
def relu (v : Row) : Row := fun j => max (v j) 0

/-- A gate of a stage (update or reset): the sigmoid of its pre-activation. -/
def gate (u h : Row) (A B : Mat) (c : Row) : Row := fun j => Ideal.logistic (dot u A j + dot h B j + c j)

/-- One gated stage, grouped as three separate pre-activations. -/
def stage (u h : Row) (A0 A1 A2 B0 B1 B2 : Mat) (c0 c1 c2 : Row) : Row := fun j =>
  gate u h A0 B0 c0 j * h j
    + (1 - gate u h A0 B0 c0 j) * Ideal.tanh (dot u A2 j + dot (fun k => gate u h A1 B1 c1 k * h k) B2 j + c2 j)

/-- The cell on one batch row: a stage, a rectified product with `M`, a second stage that reuses the first state matrix
    and the first bias row. -/
def cell (x h : Row) (Wx1 Wx2 : Fin 3 → Mat) (Wh : Fin 6 → Mat) (b : Fin 6 → Row) (M : Mat) : Row :=
  stage (relu (dot (stage x h (Wx1 0) (Wx1 1) (Wx1 2) (Wh 0) (Wh 1) (Wh 2) (b 0) (b 1) (b 2)) M))
    (stage x h (Wx1 0) (Wx1 1) (Wx1 2) (Wh 0) (Wh 1) (Wh 2) (b 0) (b 1) (b 2))
    (Wx2 0) (Wx2 1) (Wx2 2) (Wh 0) (Wh 4) (Wh 5) (b 0) (b 4) (b 5)

/-! ## The fused grouping -/

/-- `W` is the fused matrix: `A0 A1 A2` side by side in its upper 128 rows, `B0 B1` and a zero block in its lower 128. -/
structure Fused (W : Wide) (A0 A1 A2 B0 B1 : Mat) : Prop where
  a0 : ∀ k j : Fin 128, W ⟨k.val, by omega⟩ ⟨j.val, by omega⟩ = A0 k j
  a1 : ∀ k j : Fin 128, W ⟨k.val, by omega⟩ ⟨128 + j.val, by omega⟩ = A1 k j
  a2 : ∀ k j : Fin 128, W ⟨k.val, by omega⟩ ⟨128 + 128 + j.val, by omega⟩ = A2 k j
  b0 : ∀ k j : Fin 128, W ⟨128 + k.val, by omega⟩ ⟨j.val, by omega⟩ = B0 k j
  b1 : ∀ k j : Fin 128, W ⟨128 + k.val, by omega⟩ ⟨128 + j.val, by omega⟩ = B1 k j
  z : ∀ k j : Fin 128, W ⟨128 + k.val, by omega⟩ ⟨128 + 128 + j.val, by omega⟩ = 0

/-- `bf` is the fused bias row: `c0 c1 c2` side by side. -/
structure FusedBias (bf : WideRow) (c0 c1 c2 : Row) : Prop where
  c0 : ∀ j : Fin 128, bf ⟨j.val, by omega⟩ = c0 j
  c1 : ∀ j : Fin 128, bf ⟨128 + j.val, by omega⟩ = c1 j
  c2 : ∀ j : Fin 128, bf ⟨128 + 128 + j.val, by omega⟩ = c2 j

/-- The fused pre-activation at column `n`: the dot product of the row `u` followed by `h` with column `n` of the fused
    matrix, written as its two halves, plus the fused bias. -/
def preK (u h : Row) (W : Wide) (bf : WideRow) (n : Fin 384) : EReal :=
  (∑ k : Fin 128, u k * W ⟨k.val, by omega⟩ n + ∑ k : Fin 128, h k * W ⟨128 + k.val, by omega⟩ n) + bf n

/-- One gated stage from the fused matrix and bias; the product with `H` is added to the third band afterwards. -/
def stageK (u h : Row) (W : Wide) (bf : WideRow) (H : Mat) : Row := fun j =>
  Ideal.logistic (preK u h W bf ⟨j.val, by omega⟩) * h j
    + (1 - Ideal.logistic (preK u h W bf ⟨j.val, by omega⟩))
      * Ideal.tanh (preK u h W bf ⟨128 + 128 + j.val, by omega⟩
          + dot (fun k => Ideal.logistic (preK u h W bf ⟨128 + k.val, by omega⟩) * h k) H j)

/-- The cell from two fused matrices, two fused biases and the three remaining matrices. -/
def cellK (x h : Row) (W1 W2 : Wide) (b1 b2 : WideRow) (H2 H5 M : Mat) : Row :=
  stageK (relu (dot (stageK x h W1 b1 H2) M)) (stageK x h W1 b1 H2) W2 b2 H5

/-- The fused stage is the stage: the first two bands are the two gates' pre-activations verbatim; in the third the lower
    half of the sum is a sum of products with zero, and the bias and the product with `B2` change places. -/
theorem stageK_eq_stage (u h : Row) {W : Wide} {bf : WideRow} {A0 A1 A2 B0 B1 : Mat} {c0 c1 c2 : Row} (B2 : Mat)
    (hW : Fused W A0 A1 A2 B0 B1) (hb : FusedBias bf c0 c1 c2) :
    stageK u h W bf B2 = stage u h A0 A1 A2 B0 B1 B2 c0 c1 c2 := by
  have e0 : ∀ j : Fin 128, preK u h W bf ⟨j.val, by omega⟩ = dot u A0 j + dot h B0 j + c0 j := fun j => by
    simp only [preK, dot, hW.a0, hW.b0, hb.c0]
  have e1 : ∀ j : Fin 128, preK u h W bf ⟨128 + j.val, by omega⟩ = dot u A1 j + dot h B1 j + c1 j := fun j => by
    simp only [preK, dot, hW.a1, hW.b1, hb.c1]
  have e2 : ∀ j : Fin 128, preK u h W bf ⟨128 + 128 + j.val, by omega⟩ = dot u A2 j + c2 j := fun j => by
    simp only [preK, dot, hW.a2, hW.z, hb.c2, mul_zero, Finset.sum_const_zero, add_zero]
  funext j
  simp only [stageK, stage, gate, e0, e1, e2]
  rw [add_right_comm (dot u A2 j) (c2 j)]

/-- The fused cell is the cell. -/
theorem cellK_eq_cell (x h : Row) {W1 W2 : Wide} {b1 b2 : WideRow} (Wx1 Wx2 : Fin 3 → Mat) (Wh : Fin 6 → Mat)
    (b : Fin 6 → Row) (M : Mat)
    (hW1 : Fused W1 (Wx1 0) (Wx1 1) (Wx1 2) (Wh 0) (Wh 1)) (hb1 : FusedBias b1 (b 0) (b 1) (b 2))
    (hW2 : Fused W2 (Wx2 0) (Wx2 1) (Wx2 2) (Wh 0) (Wh 4)) (hb2 : FusedBias b2 (b 0) (b 4) (b 5)) :
    cellK x h W1 W2 b1 b2 (Wh 2) (Wh 5) M = cell x h Wx1 Wx2 Wh b M := by
  unfold cellK cell
  rw [stageK_eq_stage x h (Wh 2) hW1 hb1, stageK_eq_stage _ _ (Wh 5) hW2 hb2]

end Cert.Spec

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.LibConcatCols.lean ====
/-
  Two arrays joined side by side, read at an index given by its coordinates.

  An [a, b1] array and an [a, b2] array joined along the column axis give an [a, b] array (b = b1 + b2) whose
  entry at row p and column k is the first array's entry (p, k) when k < b1, and the second array's entry
  (p, k - b1) otherwise.
-/
import Idealize.ShloMosaic.Lib.Pipeline.Value
import Idealize.ShloMosaic.Lib.ValueIdx

noncomputable section

namespace Cert.LibConcatCols

open Idealize.ShloMosaic Idealize.ShloMosaic.ValueIdx

variable {α : Type}

/-- A column of the joined array that lies in the first piece reads the first piece at the same row and column. -/
theorem concatCols_left {a b1 b2 b : ℕ} (x₁ : (⟨2, ![a, b1]⟩ : Shape).Idx → α) (x₂ : (⟨2, ![a, b2]⟩ : Shape).Idx → α)
    (h : Shape.Concatenates [(⟨2, ![a, b1]⟩ : Shape), ⟨2, ![a, b2]⟩] ⟨2, ![a, b]⟩ 1) (p : Fin a) (k : Fin b)
    (hk : k.val < b1) :
    concatenate ⟨2, ![a, b]⟩ 1 [⟨⟨2, ![a, b1]⟩, x₁⟩, ⟨⟨2, ![a, b2]⟩, x₂⟩] h (ix2 p k) = x₁ (ix2 p ⟨k.val, hk⟩) := by
  refine concatenate_pair_apply_left (1 : Fin 2) x₁ x₂ h (ix2 p k) rfl (ix2 p ⟨k.val, hk⟩) fun ax => ?_
  match ax with
  | ⟨0, _⟩ => rfl
  | ⟨1, _⟩ => rfl

/-- A column of the joined array that lies past the first piece reads the second piece at the same row, the
    column less the first piece's width. -/
theorem concatCols_right {a b1 b2 b : ℕ} (x₁ : (⟨2, ![a, b1]⟩ : Shape).Idx → α) (x₂ : (⟨2, ![a, b2]⟩ : Shape).Idx → α)
    (h : Shape.Concatenates [(⟨2, ![a, b1]⟩ : Shape), ⟨2, ![a, b2]⟩] ⟨2, ![a, b]⟩ 1) (p : Fin a) (k : Fin b)
    (hk : b1 ≤ k.val) (hk2 : k.val - b1 < b2) :
    concatenate ⟨2, ![a, b]⟩ 1 [⟨⟨2, ![a, b1]⟩, x₁⟩, ⟨⟨2, ![a, b2]⟩, x₂⟩] h (ix2 p k) = x₂ (ix2 p ⟨k.val - b1, hk2⟩) := by
  refine concatenate_pair_apply_right (1 : Fin 2) x₁ x₂ h (ix2 p k) rfl rfl (ix2 p ⟨k.val - b1, hk2⟩) (fun ax hax => ?_) ?_
  · match ax with
    | ⟨0, _⟩ => rfl
    | ⟨1, _⟩ => exact absurd rfl hax
  · show k.val - b1 + b1 = k.val
    omega

/-- The two arrays side by side as one function of the row and the column. -/
def catCols {a b1 b2 b : ℕ} (hb : b = b1 + b2) (x₁ : (⟨2, ![a, b1]⟩ : Shape).Idx → α) (x₂ : (⟨2, ![a, b2]⟩ : Shape).Idx → α)
    (p : Fin a) (k : Fin b) : α :=
  if hk : k.val < b1 then x₁ (ix2 p ⟨k.val, hk⟩) else x₂ (ix2 p ⟨k.val - b1, by have := k.isLt; omega⟩)

/-- The joined array is that function. -/
theorem concatCols_apply {a b1 b2 b : ℕ} (hb : b = b1 + b2) (x₁ : (⟨2, ![a, b1]⟩ : Shape).Idx → α)
    (x₂ : (⟨2, ![a, b2]⟩ : Shape).Idx → α)
    (h : Shape.Concatenates [(⟨2, ![a, b1]⟩ : Shape), ⟨2, ![a, b2]⟩] ⟨2, ![a, b]⟩ 1) (p : Fin a) (k : Fin b) :
    concatenate ⟨2, ![a, b]⟩ 1 [⟨⟨2, ![a, b1]⟩, x₁⟩, ⟨⟨2, ![a, b2]⟩, x₂⟩] h (ix2 p k) = catCols hb x₁ x₂ p k := by
  unfold catCols
  by_cases hk : k.val < b1
  · rw [dif_pos hk]; exact concatCols_left x₁ x₂ h p k hk
  · rw [dif_neg hk]; exact concatCols_right x₁ x₂ h p k (Nat.le_of_not_lt hk) _

end Cert.LibConcatCols

end
-- ==== Proof.LibDotSplit.lean ====
/-
  A sum over `Fin (m + n)` splits into the sum over the first `m` indices and the sum over the last `n`;
  in particular a dot product against a concatenated row is the sum of the two partial dot products.
-/
import Mathlib.Algebra.BigOperators.Fin

namespace Cert.Lib

/-- A sum over `Fin 256` is the sum over the first 128 indices plus the sum over the last 128. -/
theorem sum_fin256_split {M : Type*} [AddCommMonoid M] (f : Fin 256 → M) :
    ∑ k : Fin 256, f k
      = ∑ k : Fin 128, f ⟨k.val, by omega⟩ + ∑ k : Fin 128, f ⟨128 + k.val, by omega⟩ :=
  Fin.sum_univ_add (a := 128) (b := 128) (fun k : Fin (128 + 128) => f k)

/-- A 256-term dot product whose left row is the concatenation of two 128-term rows is the sum of the two
    128-term dot products, the second against the lower half of the right column. -/
theorem dot_concat_split {M : Type*} [AddCommMonoid M] [Mul M] (c w : Fin 256 → M) (l e : Fin 128 → M)
    (hl : ∀ k : Fin 128, c ⟨k.val, by omega⟩ = l k) (he : ∀ k : Fin 128, c ⟨128 + k.val, by omega⟩ = e k) :
    ∑ k : Fin 256, c k * w k
      = ∑ k : Fin 128, l k * w ⟨k.val, by omega⟩ + ∑ k : Fin 128, e k * w ⟨128 + k.val, by omega⟩ := by
  rw [sum_fin256_split]
  simp only [hl, he]

end Cert.Lib
-- ==== Proof.PayValue.lean ====
/-
  The kernel body's arithmetic at an index, over the extended reals.

  The body computes two gated stages. Each stage joins an input block and a state block side by side into a
  [2048, 256] array, multiplies it by a fused [256, 384] matrix, adds a fused bias row, cuts the result into three
  column bands of width 128, and combines them: with z the logistic of the first band, r the logistic of the second,
  the stage is z * h + (1 - z) * tanh (third band + (r * h) H). Between the stages the first stage's value is
  multiplied by a [128, 128] matrix and rectified. Read at row q and column j, every one of these is the matching
  expression on row q of the operands: format changes and casts to the same shape are the identity.
-/
import proofs.«102413_j24713241821345_2_alg».proof.Proof.Gen.KernelIdeal.Skeleton
import proofs.«102413_j24713241821345_2_alg».proof.Proof.Spec
import proofs.«102413_j24713241821345_2_alg».proof.Proof.LibPlainProduct
import proofs.«102413_j24713241821345_2_alg».proof.Proof.LibConcatCols
import proofs.«102413_j24713241821345_2_alg».proof.Proof.LibDotSplit
import Idealize.ShloMosaic.Lib.ValueLayout
import Idealize.ShloMosaic.Lib.IdealHost

noncomputable section

namespace Cert.KernelIdeal.PayValue

open Idealize.ShloMosaic Idealize.ShloMosaic.ValueIdx Cert.KernelIdeal Cert.KernelIdeal.Gen

/-! ## The fused pre-activation -/

/-- The fused pre-activation of a stage: the input block and the state block side by side, times the fused matrix,
    plus the fused bias row on every row. -/
def preTerm (ub hb : FVec Ideal S2048x128 .bf16) (W : FVec Ideal S256x384 .bf16) (bf : FVec Ideal S1x384 .f32) :
    FVec Ideal S2048x384 .f32 :=
  addf
    (matmul dot_S2048x256_S256x384_S2048x384_1_0_0_1_n_n none
      (concatenate S2048x256 1 [⟨S2048x128, ub⟩, ⟨S2048x128, hb⟩] concatenates_S2048x128_S2048x128_S2048x256_d1) W
      (constant (F := Ideal) S2048x384 .f32 0x00000000#32))
    (broadcastTo S2048x384 bf broadcasts_S1x384_S2048x384)

/-- At row q and column n the fused pre-activation is the 256-term dot product of row q of the joined array with
    column n of the fused matrix, as its two 128-term halves, plus entry n of the bias row. -/
theorem preTerm_apply (ub hb : FVec Ideal S2048x128 .bf16) (W : FVec Ideal S256x384 .bf16) (bf : FVec Ideal S1x384 .f32)
    (q : Fin 2048) (n : Fin 384) :
    preTerm ub hb W bf (ix2 q n)
      = Cert.Spec.preK (fun k => ub (ix2 q k)) (fun k => hb (ix2 q k)) (fun k n => W (ix2 k n))
          (fun n => bf (ix2 (0 : Fin 1) n)) n := by
  unfold preTerm Cert.Spec.preK
  refine congrArg₂ (· + ·) ?_ ?_
  · refine (matmul_zero_plain_apply dot_S2048x256_S256x384_S2048x384_1_0_0_1_n_n rfl rfl rfl rfl rfl rfl none _ W q n).trans ?_
    exact Cert.Lib.dot_concat_split
      (fun k : Fin 256 => concatenate S2048x256 1 [⟨S2048x128, ub⟩, ⟨S2048x128, hb⟩]
        concatenates_S2048x128_S2048x128_S2048x256_d1 (ix2 q k))
      (fun k : Fin 256 => W (ix2 k n)) (fun k => ub (ix2 q k)) (fun k => hb (ix2 q k))
      (fun k => Cert.LibConcatCols.concatCols_left ub hb concatenates_S2048x128_S2048x128_S2048x256_d1 q
        ⟨k.val, by omega⟩ k.isLt)
      (fun k => (Cert.LibConcatCols.concatCols_right ub hb concatenates_S2048x128_S2048x128_S2048x256_d1 q
        ⟨128 + k.val, by omega⟩ (Nat.le_add_right 128 k.val) (by show 128 + k.val - 128 < 128; omega)).trans
        (congrArg (fun c : Fin 128 => hb (ix2 q c)) (Fin.ext (by show 128 + k.val - 128 = k.val; omega))))
  · exact broadcastTo_1b_ab_apply bf broadcasts_S1x384_S2048x384 q n

/-! ## The three column bands -/

theorem band0_apply (v : FVec Ideal S2048x384 .f32) (hs : S2048x384.Slices ![0, 0] S2048x128) (q : Fin 2048) (j : Fin 128) :
    extractStridedSlice S2048x128 ![0, 0] v hs (ix2 q j) = v (ix2 q ⟨j.val, by omega⟩) := by
  refine extractStridedSlice_apply _ v hs (ix2 q j) (ix2 q ⟨j.val, by omega⟩) fun a => ?_
  match a with
  | ⟨0, _⟩ => exact (Nat.zero_add _).symm
  | ⟨1, _⟩ => exact (Nat.zero_add _).symm

theorem band1_apply (v : FVec Ideal S2048x384 .f32) (hs : S2048x384.Slices ![0, 128] S2048x128) (q : Fin 2048) (j : Fin 128) :
    extractStridedSlice S2048x128 ![0, 128] v hs (ix2 q j) = v (ix2 q ⟨128 + j.val, by omega⟩) := by
  refine extractStridedSlice_apply _ v hs (ix2 q j) (ix2 q ⟨128 + j.val, by omega⟩) fun a => ?_
  match a with
  | ⟨0, _⟩ => exact (Nat.zero_add _).symm
  | ⟨1, _⟩ => rfl

theorem band2_apply (v : FVec Ideal S2048x384 .f32) (hs : S2048x384.Slices ![0, 256] S2048x128) (q : Fin 2048) (j : Fin 128) :
    extractStridedSlice S2048x128 ![0, 256] v hs (ix2 q j) = v (ix2 q ⟨128 + 128 + j.val, by omega⟩) := by
  refine extractStridedSlice_apply _ v hs (ix2 q j) (ix2 q ⟨128 + 128 + j.val, by omega⟩) fun a => ?_
  match a with
  | ⟨0, _⟩ => exact (Nat.zero_add _).symm
  | ⟨1, _⟩ => rfl

/-! ## The square product -/

/-- A [2048, 128] block times a [128, 128] matrix into a zero accumulator, at row q and column j, is row q times the
    matrix at j. -/
theorem prod_apply (a : FVec Ideal S2048x128 .bf16) (M : FVec Ideal S128x128 .bf16) (q : Fin 2048) (j : Fin 128) :
    matmul dot_S2048x128_S128x128_S2048x128_1_0_0_1_n_n none a M (constant (F := Ideal) S2048x128 .f32 0x00000000#32) (ix2 q j)
      = Cert.Spec.dot (fun k => a (ix2 q k)) (fun k n => M (ix2 k n)) j :=
  matmul_zero_plain_apply dot_S2048x128_S128x128_S2048x128_1_0_0_1_n_n rfl rfl rfl rfl rfl rfl none a M q j

/-! ## One gated stage -/

/-- One gated stage of the body as an array expression: ub and hb are the input and the state as they enter the
    fused product, hf is the state as it enters the elementwise combination. -/
def stageTerm (ub hb : FVec Ideal S2048x128 .bf16) (hf : FVec Ideal S2048x128 .f32) (W : FVec Ideal S256x384 .bf16)
    (bf : FVec Ideal S1x384 .f32) (H : FVec Ideal S128x128 .bf16) : FVec Ideal S2048x128 .f32 :=
  addf
    (mulf (logistic (extractStridedSlice S2048x128 ![0, 0] (preTerm ub hb W bf) slices_S2048x384_o0_0_S2048x128)) hf)
    (mulf
      (subf (broadcast S2048x128 (Scalar.ofBits (F := Ideal) .f32 0x3F800000#32))
        (logistic (extractStridedSlice S2048x128 ![0, 0] (preTerm ub hb W bf) slices_S2048x384_o0_0_S2048x128)))
      (tanh
        (addf (extractStridedSlice S2048x128 ![0, 256] (preTerm ub hb W bf) slices_S2048x384_o0_256_S2048x128)
          (matmul dot_S2048x128_S128x128_S2048x128_1_0_0_1_n_n none
            (truncf .bf16
              (mulf (logistic (extractStridedSlice S2048x128 ![0, 128] (preTerm ub hb W bf) slices_S2048x384_o0_128_S2048x128)) hf)
              bitsLt_bf16_f32)
            H (constant (F := Ideal) S2048x128 .f32 0x00000000#32)))))

/-- At row q and column j the stage is the fused stage of the specification on row q of its operands, as soon as
    the two spellings of the state agree on row q. -/
theorem stageTerm_apply (ub hb : FVec Ideal S2048x128 .bf16) (hf : FVec Ideal S2048x128 .f32) (W : FVec Ideal S256x384 .bf16)
    (bf : FVec Ideal S1x384 .f32) (H : FVec Ideal S128x128 .bf16) (q : Fin 2048) (j : Fin 128)
    (hh : ∀ k : Fin 128, hb (ix2 q k) = hf (ix2 q k)) :
    stageTerm ub hb hf W bf H (ix2 q j)
      = Cert.Spec.stageK (fun k => ub (ix2 q k)) (fun k => hf (ix2 q k)) (fun k n => W (ix2 k n))
          (fun n => bf (ix2 (0 : Fin 1) n)) (fun k n => H (ix2 k n)) j := by
  have hrow : (fun k : Fin 128 => hb (ix2 q k)) = fun k => hf (ix2 q k) := funext hh
  have hpre : ∀ n : Fin 384, preTerm ub hb W bf (ix2 q n)
      = Cert.Spec.preK (fun k => ub (ix2 q k)) (fun k => hf (ix2 q k)) (fun k n => W (ix2 k n))
          (fun n => bf (ix2 (0 : Fin 1) n)) n := fun n => by
    rw [preTerm_apply, hrow]
  unfold stageTerm Cert.Spec.stageK
  show Ideal.logistic (extractStridedSlice S2048x128 ![0, 0] (preTerm ub hb W bf) slices_S2048x384_o0_0_S2048x128 (ix2 q j))
        * hf (ix2 q j)
      + (Ideal.ofBits .f32 0x3F800000#32
          - Ideal.logistic (extractStridedSlice S2048x128 ![0, 0] (preTerm ub hb W bf) slices_S2048x384_o0_0_S2048x128 (ix2 q j)))
        * Ideal.tanh
          (extractStridedSlice S2048x128 ![0, 256] (preTerm ub hb W bf) slices_S2048x384_o0_256_S2048x128 (ix2 q j)
            + matmul dot_S2048x128_S128x128_S2048x128_1_0_0_1_n_n none
                (truncf .bf16
                  (mulf (logistic (extractStridedSlice S2048x128 ![0, 128] (preTerm ub hb W bf) slices_S2048x384_o0_128_S2048x128)) hf)
                  bitsLt_bf16_f32)
                H (constant (F := Ideal) S2048x128 .f32 0x00000000#32) (ix2 q j))
      = _
  rw [band0_apply, band2_apply, hpre, hpre, Ideal.ofBits_one_f32, prod_apply]
  refine congrArg (fun d : Cert.Spec.Row => _ + _ * Ideal.tanh (_ + Cert.Spec.dot d _ j)) (funext fun k => ?_)
  show Ideal.logistic (extractStridedSlice S2048x128 ![0, 128] (preTerm ub hb W bf) slices_S2048x384_o0_128_S2048x128 (ix2 q k))
        * hf (ix2 q k) = _
  rw [band1_apply, hpre]

/-- A stage of the specification depends on its five operands only through their values. -/
theorem stageK_congr {u u' h h' : Cert.Spec.Row} {W W' : Cert.Spec.Wide} {b b' : Cert.Spec.WideRow} {H H' : Cert.Spec.Mat}
    (hu : u = u') (hh : h = h') (hW : W = W') (hb : b = b') (hH : H = H') (j : Fin 128) :
    Cert.Spec.stageK u h W b H j = Cert.Spec.stageK u' h' W' b' H' j := by
  subst hu hh hW hb hH
  rfl

/-! ## The payloads -/

/-- A cast of the second fused matrix to its own shape is that matrix. -/
theorem pay2_eq (w : Vec Ideal S256x384 .bf16) : k0_pay2 (F := Ideal) w = w := shapeCast_self w _

/-- A cast of a square matrix to its own shape is that matrix. -/
theorem pay3_eq (w : Vec Ideal S128x128 .bf16) : k0_pay3 (F := Ideal) w = w := shapeCast_self w _

/-- A cast of a square matrix to its own shape is that matrix. -/
theorem pay4_eq (w : Vec Ideal S128x128 .bf16) : k0_pay4 (F := Ideal) w = w := shapeCast_self w _

/-- A cast of the second fused bias row to its own shape is that row. -/
theorem pay5_eq (b : Vec Ideal S1x384 .f32) : k0_pay5 (F := Ideal) b = b := shapeCast_self b _

/-- The first stage's value is the stage expression on the loaded blocks. -/
theorem pay6_eq (x0 x1 : Vec Ideal S2048x128 .f32) (w1 : Vec Ideal S256x384 .bf16) (wh2 : Vec Ideal S128x128 .bf16)
    (b1 : Vec Ideal S1x384 .f32) :
    k0_pay6 (F := Ideal) x0 x1 w1 wh2 b1
      = stageTerm (truncf .bf16 x0 bitsLt_bf16_f32) (truncf .bf16 x1 bitsLt_bf16_f32) x1
          (shapeCast S256x384 w1 shapeCasts_S256x384_S256x384) (shapeCast S1x384 b1 shapeCasts_S1x384_S1x384)
          (shapeCast S128x128 wh2 shapeCasts_S128x128_S128x128) := rfl

/-- The first stage's value at row q and column j is the fused stage of the specification on row q. -/
theorem pay6_apply (x0 x1 : Vec Ideal S2048x128 .f32) (w1 : Vec Ideal S256x384 .bf16) (wh2 : Vec Ideal S128x128 .bf16)
    (b1 : Vec Ideal S1x384 .f32) (q : Fin 2048) (j : Fin 128) :
    k0_pay6 (F := Ideal) x0 x1 w1 wh2 b1 (ix2 q j)
      = Cert.Spec.stageK (fun k => x0 (ix2 q k)) (fun k => x1 (ix2 q k)) (fun k n => w1 (ix2 k n))
          (fun n => b1 (ix2 (0 : Fin 1) n)) (fun k n => wh2 (ix2 k n)) j := by
  rw [pay6_eq]
  refine (stageTerm_apply _ _ _ _ _ _ q j (fun _ => rfl)).trans ?_
  rw [shapeCast_self w1, shapeCast_self b1, shapeCast_self wh2]
  rfl

/-- The stored value is the stage expression on the rectified product, the first stage's value and the second
    stage's operands. -/
theorem pay1_eq (v7 : FVec Ideal S256x384 .bf16) (v11 v13 : FVec Ideal S128x128 .bf16) (v17 : FVec Ideal S1x384 .f32)
    (v36 : FVec Ideal S2048x128 .f32) (v37 : FVec Ideal S2048x128 .bf16) :
    k0_pay1 (F := Ideal) v7 v11 v13 v17 v36 v37
      = stageTerm
          (truncf .bf16
            (maximumf
              (matmul dot_S2048x128_S128x128_S2048x128_1_0_0_1_n_n none v37 v13 (constant (F := Ideal) S2048x128 .f32 0x00000000#32))
              (broadcast S2048x128 (Scalar.ofBits (F := Ideal) .f32 0x00000000#32)))
            bitsLt_bf16_f32)
          v37 v36 v7 v17 v11 := rfl

/-- The stored value at row q and column j is the fused cell of the specification on row q of the loaded blocks. -/
theorem pay_cellK (x0 x1 : Vec Ideal S2048x128 .f32) (w1 w2 : Vec Ideal S256x384 .bf16) (wh2 wh5 mw : Vec Ideal S128x128 .bf16)
    (b1 b2 : Vec Ideal S1x384 .f32) (q : Fin 2048) (j : Fin 128) :
    k0_pay1 (F := Ideal) (k0_pay2 w2) (k0_pay3 wh5) (k0_pay4 mw) (k0_pay5 b2) (k0_pay6 x0 x1 w1 wh2 b1)
        (k0_pay7 x0 x1 w1 wh2 b1) (ix2 q j)
      = Cert.Spec.cellK (fun k => x0 (ix2 q k)) (fun k => x1 (ix2 q k)) (fun k n => w1 (ix2 k n)) (fun k n => w2 (ix2 k n))
          (fun n => b1 (ix2 (0 : Fin 1) n)) (fun n => b2 (ix2 (0 : Fin 1) n)) (fun k n => wh2 (ix2 k n))
          (fun k n => wh5 (ix2 k n)) (fun k n => mw (ix2 k n)) j := by
  have h6 : (fun k : Fin 128 => k0_pay6 (F := Ideal) x0 x1 w1 wh2 b1 (ix2 q k))
      = Cert.Spec.stageK (fun k => x0 (ix2 q k)) (fun k => x1 (ix2 q k)) (fun k n => w1 (ix2 k n))
          (fun n => b1 (ix2 (0 : Fin 1) n)) (fun k n => wh2 (ix2 k n)) :=
    funext fun k => pay6_apply x0 x1 w1 wh2 b1 q k
  rw [pay1_eq, pay2_eq, pay3_eq, pay4_eq, pay5_eq]
  refine (stageTerm_apply _ _ _ _ _ _ q j (fun _ => rfl)).trans ?_
  unfold Cert.Spec.cellK
  refine stageK_congr (funext fun k => ?_) h6 rfl rfl rfl j
  show max (matmul dot_S2048x128_S128x128_S2048x128_1_0_0_1_n_n none (k0_pay7 (F := Ideal) x0 x1 w1 wh2 b1) mw
        (constant (F := Ideal) S2048x128 .f32 0x00000000#32) (ix2 q k)) (Ideal.ofBits .f32 0x00000000#32)
      = max (Cert.Spec.dot (Cert.Spec.stageK (fun k => x0 (ix2 q k)) (fun k => x1 (ix2 q k)) (fun k n => w1 (ix2 k n))
          (fun n => b1 (ix2 (0 : Fin 1) n)) (fun k n => wh2 (ix2 k n))) (fun k n => mw (ix2 k n)) k) 0
  rw [prod_apply, Ideal.ofBits_zero_f32]
  exact congrArg (fun d : Cert.Spec.Row => max (Cert.Spec.dot d (fun k n => mw (ix2 k n)) k) 0) h6

end Cert.KernelIdeal.PayValue

end
-- ==== Proof.LibConcatCols3.lean ====
/-
  Three arrays joined side by side, read at an index given by its coordinates.

  An [a, b1], an [a, b2] and an [a, b3] array joined along the column axis give an [a, b] array whose entry at row p
  reads the first array at column k for the first b1 columns, the second array at column k for the columns b1 + k,
  and the third array at column k for the columns b1 + b2 + k.
-/
import Idealize.ShloMosaic.Lib.Pipeline.Value
import Idealize.ShloMosaic.Lib.ValueIdx

noncomputable section

namespace Cert.LibConcatCols3

open Idealize.ShloMosaic Idealize.ShloMosaic.ValueIdx

variable {α : Type}

/-- A column of the first piece. -/
theorem concatCols3_fst {a b1 b2 b3 b : ℕ} (x₁ : (⟨2, ![a, b1]⟩ : Shape).Idx → α) (x₂ : (⟨2, ![a, b2]⟩ : Shape).Idx → α)
    (x₃ : (⟨2, ![a, b3]⟩ : Shape).Idx → α)
    (h : Shape.Concatenates [(⟨2, ![a, b1]⟩ : Shape), ⟨2, ![a, b2]⟩, ⟨2, ![a, b3]⟩] ⟨2, ![a, b]⟩ 1) (p : Fin a) (k : Fin b1)
    (hk : k.val < b) :
    concatenate ⟨2, ![a, b]⟩ 1 [⟨⟨2, ![a, b1]⟩, x₁⟩, ⟨⟨2, ![a, b2]⟩, x₂⟩, ⟨⟨2, ![a, b3]⟩, x₃⟩] h (ix2 p ⟨k.val, hk⟩)
      = x₁ (ix2 p k) := by
  refine concatenate_apply_piece (t := ⟨2, ![a, b]⟩) (1 : Fin 2) ([⟨⟨2, ![a, b1]⟩, x₁⟩, ⟨⟨2, ![a, b2]⟩, x₂⟩, ⟨⟨2, ![a, b3]⟩, x₃⟩] : List ((s : Shape) × (s.Idx → α))) h (ix2 p ⟨k.val, hk⟩) 0 (show 0 < 3 by omega) ⟨2, ![a, b1]⟩ x₁ rfl rfl 0 rfl
    (ix2 p k) (fun ax hax => ?_) (Nat.zero_add _)
  match ax with
  | ⟨0, _⟩ => rfl
  | ⟨1, _⟩ => exact absurd rfl hax

/-- A column of the second piece. -/
theorem concatCols3_snd {a b1 b2 b3 b : ℕ} (x₁ : (⟨2, ![a, b1]⟩ : Shape).Idx → α) (x₂ : (⟨2, ![a, b2]⟩ : Shape).Idx → α)
    (x₃ : (⟨2, ![a, b3]⟩ : Shape).Idx → α)
    (h : Shape.Concatenates [(⟨2, ![a, b1]⟩ : Shape), ⟨2, ![a, b2]⟩, ⟨2, ![a, b3]⟩] ⟨2, ![a, b]⟩ 1) (p : Fin a) (k : Fin b2)
    (hk : b1 + k.val < b) :
    concatenate ⟨2, ![a, b]⟩ 1 [⟨⟨2, ![a, b1]⟩, x₁⟩, ⟨⟨2, ![a, b2]⟩, x₂⟩, ⟨⟨2, ![a, b3]⟩, x₃⟩] h (ix2 p ⟨b1 + k.val, hk⟩)
      = x₂ (ix2 p k) := by
  refine concatenate_apply_piece (t := ⟨2, ![a, b]⟩) (1 : Fin 2) ([⟨⟨2, ![a, b1]⟩, x₁⟩, ⟨⟨2, ![a, b2]⟩, x₂⟩, ⟨⟨2, ![a, b3]⟩, x₃⟩] : List ((s : Shape) × (s.Idx → α))) h (ix2 p ⟨b1 + k.val, hk⟩) 1 (show 1 < 3 by omega) ⟨2, ![a, b2]⟩ x₂ rfl rfl b1 ?_
    (ix2 p k) (fun ax hax => ?_) rfl
  · show [b1].sum = b1
    simp
  · match ax with
    | ⟨0, _⟩ => rfl
    | ⟨1, _⟩ => exact absurd rfl hax

/-- A column of the third piece. -/
theorem concatCols3_trd {a b1 b2 b3 b : ℕ} (x₁ : (⟨2, ![a, b1]⟩ : Shape).Idx → α) (x₂ : (⟨2, ![a, b2]⟩ : Shape).Idx → α)
    (x₃ : (⟨2, ![a, b3]⟩ : Shape).Idx → α)
    (h : Shape.Concatenates [(⟨2, ![a, b1]⟩ : Shape), ⟨2, ![a, b2]⟩, ⟨2, ![a, b3]⟩] ⟨2, ![a, b]⟩ 1) (p : Fin a) (k : Fin b3)
    (hk : b1 + b2 + k.val < b) :
    concatenate ⟨2, ![a, b]⟩ 1 [⟨⟨2, ![a, b1]⟩, x₁⟩, ⟨⟨2, ![a, b2]⟩, x₂⟩, ⟨⟨2, ![a, b3]⟩, x₃⟩] h (ix2 p ⟨b1 + b2 + k.val, hk⟩)
      = x₃ (ix2 p k) := by
  refine concatenate_apply_piece (t := ⟨2, ![a, b]⟩) (1 : Fin 2) ([⟨⟨2, ![a, b1]⟩, x₁⟩, ⟨⟨2, ![a, b2]⟩, x₂⟩, ⟨⟨2, ![a, b3]⟩, x₃⟩] : List ((s : Shape) × (s.Idx → α))) h (ix2 p ⟨b1 + b2 + k.val, hk⟩) 2 (show 2 < 3 by omega) ⟨2, ![a, b3]⟩ x₃ rfl rfl (b1 + b2) ?_
    (ix2 p k) (fun ax hax => ?_) rfl
  · show [b1, b2].sum = b1 + b2
    simp
  · match ax with
    | ⟨0, _⟩ => rfl
    | ⟨1, _⟩ => exact absurd rfl hax

end Cert.LibConcatCols3

end
-- ==== Proof.LibPlanes.lean ====
import Idealize.ShloMosaic.Lib.Pipeline.Value
import Idealize.ShloMosaic.Lib.ValueIdx
import Idealize.ShloMosaic.Lib.ValueLayout
import Idealize.ShloMosaic.PureOps.Reduce

/-!
# Planes and bands of a rank-3 array along its leading axis, read at an index

For `X : [m, a, b]`: the band of `n` planes from plane `o` (a unit-stride slice with offsets `[o, 0, 0]`) read at
`(c, i, j)` is `X (o + c, i, j)`; a single plane cut out as `[1, a, b]` and cast to the matrix `[a, b]` read at `(i, j)` is
`X (o, i, j)`; and the index a reduction over the leading axis puts back: the reduced index `(i, j)` with coordinate `k`
restored is `(k, i, j)`. Extents and element type are general.
-/

namespace Idealize.ShloMosaic.ValueIdx

open Idealize.ShloMosaic

variable {α : Type}

/-- A rank-3 array cut along its leading axis from `o` reads, at `(c, i, j)`, the source at `(k, i, j)` with `k = o + c`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (c : Fin m) (i : Fin n1) (j : Fin n2) (k : Fin n0) (hk : k.val = o + c.val) :
    extractStridedSlice ⟨3, ![m, n1, n2]⟩ ![o, 0, 0] X h (ix3 c i j) = X (ix3 k i j) :=
  extractStridedSlice_apply _ _ _ _ _ (fun ax => by
    match ax with
    | ⟨0, _⟩ => exact hk
    | ⟨1, _⟩ => exact (Nat.zero_add _).symm
    | ⟨2, _⟩ => exact (Nat.zero_add _).symm)

/-- Plane `o` of a rank-3 array, cut out as `[1, a, b]` and cast to the matrix `[a, b]`, reads at `(i, j)` the source at
    `(k, i, j)` with `k = o`. -/
theorem plane_apply {m a b : ℕ} (o : ℕ) (X : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (i : Fin a) (j : Fin b) (k : Fin m) (hk : k.val = o) :
    shapeCast ⟨2, ![a, b]⟩ (extractStridedSlice ⟨3, ![1, a, b]⟩ ![o, 0, 0] X hs) hc (ix2 i j) = X (ix3 k i j) := by
  rw [shapeCast_1ab_ab_apply]
  exact slice3_axis0_apply o X hs 0 i j k (by rw [hk]; rfl)

/-- A band of `n ≥ 1` planes starting at plane `o` fits: `o` is a plane of the source. -/
theorem slices_axis0_lt {m a b n o : ℕ} (hn : 0 < n)
    (hs : (⟨3, ![m, a, b]⟩ : Shape).Slices ![o, 0, 0] ⟨3, ![n, a, b]⟩) : o < m := by
  obtain ⟨_, H⟩ := hs
  have h1 : o + n ≤ m := H ⟨0, Nat.zero_lt_succ 2⟩
  omega

/-- Plane `o` as a matrix, as a function of the matrix index. -/
theorem plane_eq {m a b o : ℕ} (X : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![o, 0, 0] X hs) hc
      = fun i => X (ix3 (⟨o, slices_axis0_lt Nat.one_pos hs⟩ : Fin m) (i 0) (i 1)) := by
  funext i
  obtain ⟨p, q, rfl⟩ : ∃ (p : Fin a) (q : Fin b), i = ix2 p q := ⟨i 0, i 1, eq_ix2 i⟩
  exact plane_apply o X hs hc p q ⟨o, slices_axis0_lt Nat.one_pos hs⟩ rfl

/-- A band of `n` planes from plane `o`, as a function of the band's index. -/
theorem band_eq {m a b n o : ℕ} (X : (⟨3, ![m, a, b]⟩ : Shape).Idx → α)
    (hs : (⟨3, ![m, a, b]⟩ : Shape).Slices ![o, 0, 0] ⟨3, ![n, a, b]⟩) :
    extractStridedSlice ⟨3, ![n, a, b]⟩ ![o, 0, 0] X hs
      = fun i => X (ix3 (⟨o + (i 0).val, by
          obtain ⟨_, H⟩ := hs
          have h1 : o + n ≤ m := H ⟨0, Nat.zero_lt_succ 2⟩
          have h2 : (i 0).val < n := (i 0).isLt
          omega⟩ : Fin m) (i 1) (i 2)) := by
  funext i
  obtain ⟨c, p, q, rfl⟩ : ∃ (c : Fin n) (p : Fin a) (q : Fin b), i = ix3 c p q := ⟨i 0, i 1, i 2, eq_ix3 i⟩
  exact slice3_axis0_apply o X hs c p q _ rfl

/-- A rank-3 array reduced over its leading axis: the reduced index `(i, j)` with coordinate `k` put back is `(k, i, j)`. -/
theorem lift_axis0_ix3 {n a b : ℕ} (h : (⟨3, ![n, a, b]⟩ : Shape).Reduces [0] (⟨2, ![a, b]⟩ : Shape)) (i : Fin a) (j : Fin b)
    (k : Fin ((⟨3, ![n, a, b]⟩ : Shape).size 0)) : h.lift (ix2 i j) k = ix3 (⟨k.val, k.isLt⟩ : Fin n) i j := by
  funext c; apply Fin.ext
  fin_cases c <;> rfl

end Idealize.ShloMosaic.ValueIdx
-- ==== Proof.HostValue.lean ====
import proofs.«102413_j24713241821345_2_alg».proof.Proof.HostTerms
import proofs.«102413_j24713241821345_2_alg».proof.Proof.Spec
import proofs.«102413_j24713241821345_2_alg».proof.Proof.LibConcatCols3
import proofs.«102413_j24713241821345_2_alg».proof.Proof.LibPlanes
import Idealize.ShloMosaic.Lib.IdealHost

/-!
# The arrays the host prepares, read at an index, over the extended reals

Over the extended reals a format change is the identity, so a plane of a converted stack cast to a matrix reads the stack
itself at that plane; three matrices side by side read the first at columns `j`, the second at columns `128 + j` and the
third at columns `128 + 128 + j`; one wide matrix over another reads the upper one at rows `k` and the lower one at rows
`128 + k`; and the zero block is zero everywhere. Together these say that each fused matrix is the fused matrix of the
specification (three input planes side by side over two state planes and a zero block), that each fused bias row is three
bias rows side by side, and that the three remaining matrices are a plane, a plane, and the middle matrix itself.
-/

noncomputable section

namespace Cert.KernelIdeal.HostValue

open Idealize.ShloMosaic Idealize.ShloMosaic.ValueIdx Cert.KernelIdeal Cert.KernelIdeal.Host Cert.KernelIdeal.Gen

/-! ## Two arrays joined one over the other -/

section Rows

variable {α : Type}

/-- An `[a1, b]` array over an `[a2, b]` array: row `k` of the join, for `k` a row of the upper piece, is that row. -/
theorem concatRows_upper {a1 a2 a b : ℕ} (x₁ : (⟨2, ![a1, b]⟩ : Shape).Idx → α) (x₂ : (⟨2, ![a2, b]⟩ : Shape).Idx → α)
    (h : Shape.Concatenates [(⟨2, ![a1, b]⟩ : Shape), ⟨2, ![a2, b]⟩] ⟨2, ![a, b]⟩ 0) (k : Fin a1) (q : Fin b)
    (hk : k.val < a) :
    concatenate ⟨2, ![a, b]⟩ 0 [⟨⟨2, ![a1, b]⟩, x₁⟩, ⟨⟨2, ![a2, b]⟩, x₂⟩] h (ix2 ⟨k.val, hk⟩ q) = x₁ (ix2 k q) := by
  refine concatenate_apply_piece (t := ⟨2, ![a, b]⟩) (0 : Fin 2)
    ([⟨⟨2, ![a1, b]⟩, x₁⟩, ⟨⟨2, ![a2, b]⟩, x₂⟩] : List ((s : Shape) × (s.Idx → α))) h (ix2 ⟨k.val, hk⟩ q) 0
    (show 0 < 2 by omega) ⟨2, ![a1, b]⟩ x₁ rfl rfl 0 rfl (ix2 k q) (fun ax hax => ?_) (Nat.zero_add _)
  match ax with
  | ⟨0, _⟩ => exact absurd rfl hax
  | ⟨1, _⟩ => rfl

/-- Row `a1 + k` of the join, for `k` a row of the lower piece, is that row. -/
theorem concatRows_lower {a1 a2 a b : ℕ} (x₁ : (⟨2, ![a1, b]⟩ : Shape).Idx → α) (x₂ : (⟨2, ![a2, b]⟩ : Shape).Idx → α)
    (h : Shape.Concatenates [(⟨2, ![a1, b]⟩ : Shape), ⟨2, ![a2, b]⟩] ⟨2, ![a, b]⟩ 0) (k : Fin a2) (q : Fin b)
    (hk : a1 + k.val < a) :
    concatenate ⟨2, ![a, b]⟩ 0 [⟨⟨2, ![a1, b]⟩, x₁⟩, ⟨⟨2, ![a2, b]⟩, x₂⟩] h (ix2 ⟨a1 + k.val, hk⟩ q) = x₂ (ix2 k q) := by
  refine concatenate_apply_piece (t := ⟨2, ![a, b]⟩) (0 : Fin 2)
    ([⟨⟨2, ![a1, b]⟩, x₁⟩, ⟨⟨2, ![a2, b]⟩, x₂⟩] : List ((s : Shape) × (s.Idx → α))) h (ix2 ⟨a1 + k.val, hk⟩ q) 1
    (show 1 < 2 by omega) ⟨2, ![a2, b]⟩ x₂ rfl rfl a1 ?_ (ix2 k q) (fun ax hax => ?_) rfl
  · show [a1].sum = a1
    simp
  · match ax with
    | ⟨0, _⟩ => exact absurd rfl hax
    | ⟨1, _⟩ => rfl

end Rows

/-! ## The building blocks at an index -/

/-- A plane of a converted three-plane stack reads the stack at that plane. -/
theorem plane3_apply (o : ℕ) (hs : S3x128x128.Slices ![o, 0, 0] S1x128x128) (a : FVec Ideal S3x128x128 .f32)
    (i j : Fin 128) (k : Fin 3) (hk : k.val = o) : plane3 (F := Ideal) o hs a (ix2 i j) = a (ix3 k i j) :=
  plane_apply o (truncf (F := Ideal) .bf16 a bitsLt_bf16_f32) hs shapeCasts_S1x128x128_S128x128 i j k hk

/-- A plane of the converted six-plane stack reads the stack at that plane. -/
theorem plane6_apply (o : ℕ) (hs : S6x128x128.Slices ![o, 0, 0] S1x128x128) (a : FVec Ideal S6x128x128 .f32)
    (i j : Fin 128) (k : Fin 6) (hk : k.val = o) : plane6 (F := Ideal) o hs a (ix2 i j) = a (ix3 k i j) :=
  plane_apply o (truncf (F := Ideal) .bf16 a bitsLt_bf16_f32) hs shapeCasts_S1x128x128_S128x128 i j k hk

/-- A row of the bias stack as a one-row matrix reads the stack at that row. -/
theorem brow_apply (o : ℕ) (hs : S6x1x128.Slices ![o, 0, 0] S1x1x128) (a : FVec Ideal S6x1x128 .f32)
    (j : Fin 128) (k : Fin 6) (hk : k.val = o) :
    brow (F := Ideal) o hs a (ix2 (0 : Fin 1) j) = a (ix3 k (0 : Fin 1) j) :=
  plane_apply o a hs shapeCasts_S1x1x128_S1x128 (0 : Fin 1) j k hk

/-- The zero block is zero at every index. -/
theorem zeroBlock_apply (i : S128x128.Idx) : zeroBlock (F := Ideal) i = 0 := by
  unfold zeroBlock
  refine (broadcastInDim_apply (![] : Fin 0 → Fin S128x128.rank) bcast_S_S128x128
    (constant (F := Ideal) S_ .bf16 0x0000#16) i (fun a => a.elim0) (fun a => a.elim0)).trans ?_
  exact (constant_apply _ _).trans Ideal.ofBits_zero_bf16

/-- Three matrices side by side, at a column of the first. -/
theorem side3_fst (p q r : FVec Ideal S128x128 .bf16) (k j : Fin 128) (hj : j.val < 384) :
    side3 (F := Ideal) p q r (ix2 k ⟨j.val, hj⟩) = p (ix2 k j) :=
  Cert.LibConcatCols3.concatCols3_fst p q r concatenates_S128x128_S128x128_S128x128_S128x384_d1 k j hj

/-- Three matrices side by side, at a column of the second. -/
theorem side3_snd (p q r : FVec Ideal S128x128 .bf16) (k j : Fin 128) (hj : 128 + j.val < 384) :
    side3 (F := Ideal) p q r (ix2 k ⟨128 + j.val, hj⟩) = q (ix2 k j) :=
  Cert.LibConcatCols3.concatCols3_snd p q r concatenates_S128x128_S128x128_S128x128_S128x384_d1 k j hj

/-- Three matrices side by side, at a column of the third. -/
theorem side3_trd (p q r : FVec Ideal S128x128 .bf16) (k j : Fin 128) (hj : 128 + 128 + j.val < 384) :
    side3 (F := Ideal) p q r (ix2 k ⟨128 + 128 + j.val, hj⟩) = r (ix2 k j) :=
  Cert.LibConcatCols3.concatCols3_trd p q r concatenates_S128x128_S128x128_S128x128_S128x384_d1 k j hj

/-- Three one-row matrices side by side, at a column of the first. -/
theorem rows3_fst (p q r : FVec Ideal S1x128 .f32) (j : Fin 128) (hj : j.val < 384) :
    rows3 (F := Ideal) p q r (ix2 (0 : Fin 1) ⟨j.val, hj⟩) = p (ix2 (0 : Fin 1) j) :=
  Cert.LibConcatCols3.concatCols3_fst p q r concatenates_S1x128_S1x128_S1x128_S1x384_d1 (0 : Fin 1) j hj

/-- Three one-row matrices side by side, at a column of the second. -/
theorem rows3_snd (p q r : FVec Ideal S1x128 .f32) (j : Fin 128) (hj : 128 + j.val < 384) :
    rows3 (F := Ideal) p q r (ix2 (0 : Fin 1) ⟨128 + j.val, hj⟩) = q (ix2 (0 : Fin 1) j) :=
  Cert.LibConcatCols3.concatCols3_snd p q r concatenates_S1x128_S1x128_S1x128_S1x384_d1 (0 : Fin 1) j hj

/-- Three one-row matrices side by side, at a column of the third. -/
theorem rows3_trd (p q r : FVec Ideal S1x128 .f32) (j : Fin 128) (hj : 128 + 128 + j.val < 384) :
    rows3 (F := Ideal) p q r (ix2 (0 : Fin 1) ⟨128 + 128 + j.val, hj⟩) = r (ix2 (0 : Fin 1) j) :=
  Cert.LibConcatCols3.concatCols3_trd p q r concatenates_S1x128_S1x128_S1x128_S1x384_d1 (0 : Fin 1) j hj

/-- One wide matrix over another, at a row of the upper one. -/
theorem over_upper (p q : FVec Ideal S128x384 .bf16) (k : Fin 128) (n : Fin 384) (hk : k.val < 256) :
    over (F := Ideal) p q (ix2 ⟨k.val, hk⟩ n) = p (ix2 k n) :=
  concatRows_upper p q concatenates_S128x384_S128x384_S256x384_d0 k n hk

/-- One wide matrix over another, at a row of the lower one. -/
theorem over_lower (p q : FVec Ideal S128x384 .bf16) (k : Fin 128) (n : Fin 384) (hk : 128 + k.val < 256) :
    over (F := Ideal) p q (ix2 ⟨128 + k.val, hk⟩ n) = q (ix2 k n) :=
  concatRows_lower p q concatenates_S128x384_S128x384_S256x384_d0 k n hk

/-! ## The fused matrices -/

/-- Three planes side by side over two planes and the zero block is the fused matrix of the specification. -/
theorem fused_of_blocks (p0 p1 p2 q0 q1 : FVec Ideal S128x128 .bf16) :
    Cert.Spec.Fused (fun k n => over (F := Ideal) (side3 p0 p1 p2) (side3 q0 q1 zeroBlock) (ix2 k n))
      (fun k n => p0 (ix2 k n)) (fun k n => p1 (ix2 k n)) (fun k n => p2 (ix2 k n))
      (fun k n => q0 (ix2 k n)) (fun k n => q1 (ix2 k n)) where
  a0 := fun k j => (over_upper _ _ k _ _).trans (side3_fst _ _ _ k j _)
  a1 := fun k j => (over_upper _ _ k _ _).trans (side3_snd _ _ _ k j _)
  a2 := fun k j => (over_upper _ _ k _ _).trans (side3_trd _ _ _ k j _)
  b0 := fun k j => (over_lower _ _ k _ _).trans (side3_fst _ _ _ k j _)
  b1 := fun k j => (over_lower _ _ k _ _).trans (side3_snd _ _ _ k j _)
  z := fun k j => ((over_lower _ _ k _ _).trans (side3_trd _ _ _ k j _)).trans (zeroBlock_apply _)

theorem w1f_fused (a2 : FVec Ideal S3x128x128 .f32) (a4 : FVec Ideal S6x128x128 .f32) :
    Cert.Spec.Fused (fun k n => w1f (F := Ideal) a2 a4 (ix2 k n)) (fun k n => a2 (ix3 (0 : Fin 3) k n))
      (fun k n => a2 (ix3 (1 : Fin 3) k n)) (fun k n => a2 (ix3 (2 : Fin 3) k n))
      (fun k n => a4 (ix3 (0 : Fin 6) k n)) (fun k n => a4 (ix3 (1 : Fin 6) k n)) := by
  have H := fused_of_blocks (plane3 (F := Ideal) 0 slices_S3x128x128_S1x128x128_0_0_0 a2)
    (plane3 (F := Ideal) 1 slices_S3x128x128_S1x128x128_1_0_0 a2) (plane3 (F := Ideal) 2 slices_S3x128x128_S1x128x128_2_0_0 a2)
    (plane6 (F := Ideal) 0 slices_S6x128x128_S1x128x128_0_0_0 a4) (plane6 (F := Ideal) 1 slices_S6x128x128_S1x128x128_1_0_0 a4)
  exact
    { a0 := fun k j => (H.a0 k j).trans (plane3_apply 0 _ a2 k j 0 rfl)
      a1 := fun k j => (H.a1 k j).trans (plane3_apply 1 _ a2 k j 1 rfl)
      a2 := fun k j => (H.a2 k j).trans (plane3_apply 2 _ a2 k j 2 rfl)
      b0 := fun k j => (H.b0 k j).trans (plane6_apply 0 _ a4 k j 0 rfl)
      b1 := fun k j => (H.b1 k j).trans (plane6_apply 1 _ a4 k j 1 rfl)
      z := H.z }

theorem w2f_fused (a3 : FVec Ideal S3x128x128 .f32) (a4 : FVec Ideal S6x128x128 .f32) :
    Cert.Spec.Fused (fun k n => w2f (F := Ideal) a3 a4 (ix2 k n)) (fun k n => a3 (ix3 (0 : Fin 3) k n))
      (fun k n => a3 (ix3 (1 : Fin 3) k n)) (fun k n => a3 (ix3 (2 : Fin 3) k n))
      (fun k n => a4 (ix3 (0 : Fin 6) k n)) (fun k n => a4 (ix3 (4 : Fin 6) k n)) := by
  have H := fused_of_blocks (plane3 (F := Ideal) 0 slices_S3x128x128_S1x128x128_0_0_0 a3)
    (plane3 (F := Ideal) 1 slices_S3x128x128_S1x128x128_1_0_0 a3) (plane3 (F := Ideal) 2 slices_S3x128x128_S1x128x128_2_0_0 a3)
    (plane6 (F := Ideal) 0 slices_S6x128x128_S1x128x128_0_0_0 a4) (plane6 (F := Ideal) 4 slices_S6x128x128_S1x128x128_4_0_0 a4)
  exact
    { a0 := fun k j => (H.a0 k j).trans (plane3_apply 0 _ a3 k j 0 rfl)
      a1 := fun k j => (H.a1 k j).trans (plane3_apply 1 _ a3 k j 1 rfl)
      a2 := fun k j => (H.a2 k j).trans (plane3_apply 2 _ a3 k j 2 rfl)
      b0 := fun k j => (H.b0 k j).trans (plane6_apply 0 _ a4 k j 0 rfl)
      b1 := fun k j => (H.b1 k j).trans (plane6_apply 4 _ a4 k j 4 rfl)
      z := H.z }

/-! ## The remaining matrices -/

theorem wh2_apply (a4 : FVec Ideal S6x128x128 .f32) (k n : Fin 128) :
    wh2 (F := Ideal) a4 (ix2 k n) = a4 (ix3 (2 : Fin 6) k n) :=
  plane6_apply 2 _ a4 k n 2 rfl

theorem wh5_apply (a4 : FVec Ideal S6x128x128 .f32) (k n : Fin 128) :
    wh5 (F := Ideal) a4 (ix2 k n) = a4 (ix3 (5 : Fin 6) k n) :=
  plane6_apply 5 _ a4 k n 5 rfl

theorem midb_apply (a6 : FVec Ideal S128x128 .f32) (k n : Fin 128) :
    midb (F := Ideal) a6 (ix2 k n) = a6 (ix2 k n) :=
  truncf_apply a6 bitsLt_bf16_f32 (ix2 k n)

/-! ## The fused bias rows -/

theorem b1f_fused (a5 : FVec Ideal S6x1x128 .f32) :
    Cert.Spec.FusedBias (fun n => b1f (F := Ideal) a5 (ix2 (0 : Fin 1) n)) (fun n => a5 (ix3 (0 : Fin 6) (0 : Fin 1) n))
      (fun n => a5 (ix3 (1 : Fin 6) (0 : Fin 1) n)) (fun n => a5 (ix3 (2 : Fin 6) (0 : Fin 1) n)) where
  c0 := fun j => (rows3_fst _ _ _ j _).trans (brow_apply 0 _ a5 j 0 rfl)
  c1 := fun j => (rows3_snd _ _ _ j _).trans (brow_apply 1 _ a5 j 1 rfl)
  c2 := fun j => (rows3_trd _ _ _ j _).trans (brow_apply 2 _ a5 j 2 rfl)

theorem b2f_fused (a5 : FVec Ideal S6x1x128 .f32) :
    Cert.Spec.FusedBias (fun n => b2f (F := Ideal) a5 (ix2 (0 : Fin 1) n)) (fun n => a5 (ix3 (0 : Fin 6) (0 : Fin 1) n))
      (fun n => a5 (ix3 (4 : Fin 6) (0 : Fin 1) n)) (fun n => a5 (ix3 (5 : Fin 6) (0 : Fin 1) n)) where
  c0 := fun j => (rows3_fst _ _ _ j _).trans (brow_apply 0 _ a5 j 0 rfl)
  c1 := fun j => (rows3_snd _ _ _ j _).trans (brow_apply 4 _ a5 j 4 rfl)
  c2 := fun j => (rows3_trd _ _ _ j _).trans (brow_apply 5 _ a5 j 5 rfl)

end Cert.KernelIdeal.HostValue

end
-- ==== Proof.Whole.lean ====
import proofs.«102413_j24713241821345_2_alg».proof.Proof.Spec
import Idealize.ShloMosaic.Lib.ValueIdx

/-!
# The cell applied to every batch row

The result array as one function of the seven argument arrays: its entry at row `p`, column `j` is the cell of row `p` of the
two batch arrays, with the weight stacks read plane by plane and the bias stack row by row.
-/

noncomputable section

namespace Cert.Spec

open Idealize.ShloMosaic Idealize.ShloMosaic.ValueIdx

/-- The result array, index by index. -/
def whole (x0 x1 : (⟨2, ![131072, 128]⟩ : Shape).Idx → EReal) (x2 x3 : (⟨3, ![3, 128, 128]⟩ : Shape).Idx → EReal)
    (x4 : (⟨3, ![6, 128, 128]⟩ : Shape).Idx → EReal) (x5 : (⟨3, ![6, 1, 128]⟩ : Shape).Idx → EReal)
    (x6 : (⟨2, ![128, 128]⟩ : Shape).Idx → EReal) : (⟨2, ![131072, 128]⟩ : Shape).Idx → EReal := fun i =>
  cell (fun k => x0 (ix2 (⟨(i 0).val, idx2_lt0 i⟩ : Fin 131072) k)) (fun k => x1 (ix2 (⟨(i 0).val, idx2_lt0 i⟩ : Fin 131072) k))
    (fun a k n => x2 (ix3 a k n)) (fun a k n => x3 (ix3 a k n)) (fun a k n => x4 (ix3 a k n))
    (fun a n => x5 (ix3 a (0 : Fin 1) n)) (fun k n => x6 (ix2 k n)) (⟨(i 1).val, idx2_lt1 i⟩ : Fin 128)

/-- At row `p`, column `j`. -/
theorem whole_apply (x0 x1 : (⟨2, ![131072, 128]⟩ : Shape).Idx → EReal) (x2 x3 : (⟨3, ![3, 128, 128]⟩ : Shape).Idx → EReal)
    (x4 : (⟨3, ![6, 128, 128]⟩ : Shape).Idx → EReal) (x5 : (⟨3, ![6, 1, 128]⟩ : Shape).Idx → EReal)
    (x6 : (⟨2, ![128, 128]⟩ : Shape).Idx → EReal) (p : Fin 131072) (j : Fin 128) :
    whole x0 x1 x2 x3 x4 x5 x6 (ix2 p j)
      = cell (fun k => x0 (ix2 p k)) (fun k => x1 (ix2 p k)) (fun a k n => x2 (ix3 a k n)) (fun a k n => x3 (ix3 a k n))
          (fun a k n => x4 (ix3 a k n)) (fun a n => x5 (ix3 a (0 : Fin 1) n)) (fun k n => x6 (ix2 k n)) j := rfl

end Cert.Spec

end
-- ==== Proof.KernelValue.lean ====
import proofs.«102413_j24713241821345_2_alg».proof.Proof.BlockValue
import proofs.«102413_j24713241821345_2_alg».proof.Proof.PayValue
import proofs.«102413_j24713241821345_2_alg».proof.Proof.HostValue
import proofs.«102413_j24713241821345_2_alg».proof.Proof.Whole
import Idealize.ShloMosaic.Lib.Pipeline.Value

/-!
# The idealized kernel's result array

At grid point `t` the body stores, at row `q` and column `j` of its block, the cell of batch row `2048 t + q`; the pipeline
writes the block back to rows `2048 t … 2048 t + 2047` of the result; the 64 blocks cover the array. So after the run the
result array is the cell of every batch row of the argument arrays.
-/

noncomputable section

namespace Cert.KernelIdeal.Result

open Cert.KernelIdeal Cert.KernelIdeal.Gen Cert.KernelIdeal.Frame Cert.KernelIdeal.Host Cert.KernelIdeal.BlockValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array: the cell of every batch row of the arguments as launched. -/
def result (c : Dev nD) : Buf (Elt Ideal) ((c : Thread nD τ).loc main_v49) :=
  Cert.Spec.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem hz : (![0, 0] : Fin 2 → Nat) = fun _ => 0 := funext fun a => by fin_cases a <;> rfl

/-- What the body stores, at row `q` and column `j` of its block: the cell of row `q` of the two batch blocks, when the seven
    other blocks are the arrays the host built from the weight and bias stacks. The body's arithmetic is the fused
    grouping; the fused matrices and bias rows are the stacks' planes and rows side by side; the two groupings agree. -/
theorem stored_apply (x0 x1 : Vec Ideal S2048x128 .f32) (a2 a3 : FVec Ideal S3x128x128 .f32) (a4 : FVec Ideal S6x128x128 .f32)
    (a5 : FVec Ideal S6x1x128 .f32) (a6 : FVec Ideal S128x128 .f32) (q : Fin 2048) (j : Fin 128) :
    stored (F := Ideal) x0 x1 (w1f a2 a4) (w2f a3 a4) (wh2 a4) (wh5 a4) (midb a6) (b1f a5) (b2f a5) (ix2 q j)
      = Cert.Spec.cell (fun k => x0 (ix2 q k)) (fun k => x1 (ix2 q k)) (fun a k n => a2 (ix3 a k n)) (fun a k n => a3 (ix3 a k n))
          (fun a k n => a4 (ix3 a k n)) (fun a n => a5 (ix3 a (0 : Fin 1) n)) (fun k n => a6 (ix2 k n)) j := by
  unfold stored
  rw [View.canon_unit_zero hz]
  simp only [View.ld_unit_zero (S := S2048x128) hz, View.ld_unit_zero (S := S256x384) hz, View.ld_unit_zero (S := S128x128) hz,
    View.ld_unit_zero (S := S1x384) hz]
  refine (Cert.KernelIdeal.PayValue.pay_cellK x0 x1 (w1f a2 a4) (w2f a3 a4) (wh2 a4) (wh5 a4) (midb a6) (b1f a5) (b2f a5) q j).trans ?_
  have e2 : (fun k n => wh2 (F := Ideal) a4 (ix2 k n)) = fun k n => a4 (ix3 (2 : Fin 6) k n) :=
    funext fun k => funext fun n => Cert.KernelIdeal.HostValue.wh2_apply a4 k n
  have e5 : (fun k n => wh5 (F := Ideal) a4 (ix2 k n)) = fun k n => a4 (ix3 (5 : Fin 6) k n) :=
    funext fun k => funext fun n => Cert.KernelIdeal.HostValue.wh5_apply a4 k n
  have e6 : (fun k n => midb (F := Ideal) a6 (ix2 k n)) = fun k n => a6 (ix2 k n) :=
    funext fun k => funext fun n => Cert.KernelIdeal.HostValue.midb_apply a6 k n
  rw [e2, e5, e6]
  exact congrFun (Cert.Spec.cellK_eq_cell (fun k => x0 (ix2 q k)) (fun k => x1 (ix2 q k)) (fun a k n => a2 (ix3 a k n)) (fun a k n => a3 (ix3 a k n))
    (fun a k n => a4 (ix3 a k n)) (fun a n => a5 (ix3 a (0 : Fin 1) n)) (fun k n => a6 (ix2 k n))
    (Cert.KernelIdeal.HostValue.w1f_fused a2 a4) (Cert.KernelIdeal.HostValue.b1f_fused a5)
    (Cert.KernelIdeal.HostValue.w2f_fused a3 a4) (Cert.KernelIdeal.HostValue.b2f_fused a5)) j

/-- What grid point `t` writes back is block `t` of the result array: rows `2048 t …` of it. -/
theorem flushed_eq (c : Dev nD) (t : Fin cfg0.N) :
    (pdata m 0 c).flushed 9 t = ((cfg0.win 9).blk t).view.read (Elt Ideal) (result m c) := by
  show (cfg0.win 9).cut (grid0.coords t) ((pdata m 0 c).after 9 t) = _
  rw [after9, block2_eq, block3_eq, block4_eq, block5_eq, block6_eq, block7_eq, block8_eq]
  show (stored (F := Ideal) (block m c 0 t) (block m c 1 t) _ _ _ _ _ _ _ : S2048x128.Idx → EReal) = fun y => result m c (((cfg0.win 9).blk t).view.emb y)
  funext y
  obtain ⟨q, j, rfl⟩ : ∃ (q : Fin 2048) (j : Fin 128), y = ix2 q j := ⟨y 0, y 1, eq_ix2 y⟩
  rw [stored_apply (block m c 0 t) (block m c 1 t) (m ((c : Thread nD τ).loc main_arg2)) (m ((c : Thread nD τ).loc main_arg3)) (m ((c : Thread nD τ).loc main_arg4)) (m ((c : Thread nD τ).loc main_arg5)) (m ((c : Thread nD τ).loc main_arg6)) q j, out_emb t q j]
  unfold result
  rw [Cert.Spec.whole_apply]
  simp only [block0_apply, block1_apply]

/-- After the run the result array is the cell of every batch row: each of the 64 points writes its block of it, and the
    blocks cover the array. -/
theorem final (c : Dev nD) : (pdata m 0 c).arrAt 9 cfg0.N = result m c :=
  (pdata m 0 c).arrAt_eq_of_cover 9 (result m c) (fun t _ => flushed_eq m c t) out_cover

/-- The idealized kernel's run, read: the result array at the cell of every batch row of the arguments, the arguments kept. -/
theorem run : θ_run defs (onTc (τ := τ) (main (F := Ideal))) ⟨m, fun _ => 0, ρ⟩ fun r => ∀ c : Dev nD,
      r.2.mem ((c.tc : Thread nD τ).loc main_v49) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 9).trans (final m c),
      ((h c).1 0).trans (((pdata m 0 c).arrAt_in 0 rfl _).trans ((pdata_A m c 0).trans (entry_arg0 m c))),
      ((h c).1 1).trans (((pdata m 0 c).arrAt_in 1 rfl _).trans ((pdata_A m c 1).trans (entry_arg1 m c))),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c)⟩)
    (run_main m ρ)

end Cert.KernelIdeal.Result

end
-- ==== Proof.RefImports.lean ====
import proofs.«102413_j24713241821345_2_alg».proof.Proof.Gen.ReferenceIdeal.Read

/-! The reference's run and its read-at-an-index lemmas, brought into scope for the modules that state what the
    reference computes. -/
-- ==== Proof.RefValue.lean ====
import proofs.«102413_j24713241821345_2_alg».proof.Proof.RefImports
import proofs.«102413_j24713241821345_2_alg».proof.Proof.Spec
import proofs.«102413_j24713241821345_2_alg».proof.Proof.LibPlanes
import proofs.«102413_j24713241821345_2_alg».proof.Proof.LibPlainProduct
import Idealize.ShloMosaic.Lib.IdealHost

/-!
# The reference computes the double gated cell, row by row

The reference materialises whole `[131072, 128]` arrays; row `p` of each depends only on row `p` of the two inputs.
Every array of the reference is read here at `(p, j)`: a plane of a weight stack is that stack at a fixed leading
coordinate, a bias row broadcast over the batch is the bias at column `j`, a product is a row times a matrix, the
quotient `1 / (1 + exp (-x))` is the logistic function by definition, and the maximum with the zero array is the
rectifier. The two gated stages then are the specification's stages term for term, in the reference's own order of
additions.
-/

noncomputable section

namespace Cert.RefValue

open Idealize.ShloMosaic Idealize.ShloMosaic.ValueIdx Cert.ReferenceIdeal Cert.ReferenceIdeal.Read

/-! ## Planes of the weight stacks -/

theorem plane_v1 (x2 : (⟨S3x128x128, .f32⟩ : BufTy).Contents (Elt Ideal)) (k n : Fin 128) :
    val_main_v1 (F := Ideal) x2 (ix2 k n) = x2 (ix3 (0 : Fin 3) k n) := by
  unfold val_main_v1 val_main_v0
  exact plane_apply 0 x2 _ _ k n (0 : Fin 3) rfl

theorem plane_v18 (x2 : (⟨S3x128x128, .f32⟩ : BufTy).Contents (Elt Ideal)) (k n : Fin 128) :
    val_main_v18 (F := Ideal) x2 (ix2 k n) = x2 (ix3 (1 : Fin 3) k n) := by
  unfold val_main_v18 val_main_v17
  exact plane_apply 1 x2 _ _ k n (1 : Fin 3) rfl

theorem plane_v35 (x2 : (⟨S3x128x128, .f32⟩ : BufTy).Contents (Elt Ideal)) (k n : Fin 128) :
    val_main_v35 (F := Ideal) x2 (ix2 k n) = x2 (ix3 (2 : Fin 3) k n) := by
  unfold val_main_v35 val_main_v34
  exact plane_apply 2 x2 _ _ k n (2 : Fin 3) rfl

theorem plane_v4 (x4 : (⟨S6x128x128, .f32⟩ : BufTy).Contents (Elt Ideal)) (k n : Fin 128) :
    val_main_v4 (F := Ideal) x4 (ix2 k n) = x4 (ix3 (0 : Fin 6) k n) := by
  unfold val_main_v4 val_main_v3
  exact plane_apply 0 x4 _ _ k n (0 : Fin 6) rfl

theorem plane_v21 (x4 : (⟨S6x128x128, .f32⟩ : BufTy).Contents (Elt Ideal)) (k n : Fin 128) :
    val_main_v21 (F := Ideal) x4 (ix2 k n) = x4 (ix3 (1 : Fin 6) k n) := by
  unfold val_main_v21 val_main_v20
  exact plane_apply 1 x4 _ _ k n (1 : Fin 6) rfl

theorem plane_v39 (x4 : (⟨S6x128x128, .f32⟩ : BufTy).Contents (Elt Ideal)) (k n : Fin 128) :
    val_main_v39 (F := Ideal) x4 (ix2 k n) = x4 (ix3 (2 : Fin 6) k n) := by
  unfold val_main_v39 val_main_v38
  exact plane_apply 2 x4 _ _ k n (2 : Fin 6) rfl

theorem plane_v55 (x3 : (⟨S3x128x128, .f32⟩ : BufTy).Contents (Elt Ideal)) (k n : Fin 128) :
    val_main_v55 (F := Ideal) x3 (ix2 k n) = x3 (ix3 (0 : Fin 3) k n) := by
  unfold val_main_v55 val_main_v54
  exact plane_apply 0 x3 _ _ k n (0 : Fin 3) rfl

theorem plane_v72 (x3 : (⟨S3x128x128, .f32⟩ : BufTy).Contents (Elt Ideal)) (k n : Fin 128) :
    val_main_v72 (F := Ideal) x3 (ix2 k n) = x3 (ix3 (1 : Fin 3) k n) := by
  unfold val_main_v72 val_main_v71
  exact plane_apply 1 x3 _ _ k n (1 : Fin 3) rfl

theorem plane_v89 (x3 : (⟨S3x128x128, .f32⟩ : BufTy).Contents (Elt Ideal)) (k n : Fin 128) :
    val_main_v89 (F := Ideal) x3 (ix2 k n) = x3 (ix3 (2 : Fin 3) k n) := by
  unfold val_main_v89 val_main_v88
  exact plane_apply 2 x3 _ _ k n (2 : Fin 3) rfl

theorem plane_v58 (x4 : (⟨S6x128x128, .f32⟩ : BufTy).Contents (Elt Ideal)) (k n : Fin 128) :
    val_main_v58 (F := Ideal) x4 (ix2 k n) = x4 (ix3 (0 : Fin 6) k n) := by
  unfold val_main_v58 val_main_v57
  exact plane_apply 0 x4 _ _ k n (0 : Fin 6) rfl

theorem plane_v75 (x4 : (⟨S6x128x128, .f32⟩ : BufTy).Contents (Elt Ideal)) (k n : Fin 128) :
    val_main_v75 (F := Ideal) x4 (ix2 k n) = x4 (ix3 (4 : Fin 6) k n) := by
  unfold val_main_v75 val_main_v74
  exact plane_apply 4 x4 _ _ k n (4 : Fin 6) rfl

theorem plane_v93 (x4 : (⟨S6x128x128, .f32⟩ : BufTy).Contents (Elt Ideal)) (k n : Fin 128) :
    val_main_v93 (F := Ideal) x4 (ix2 k n) = x4 (ix3 (5 : Fin 6) k n) := by
  unfold val_main_v93 val_main_v92
  exact plane_apply 5 x4 _ _ k n (5 : Fin 6) rfl

/-! ## The bias rows, broadcast over the batch -/

theorem bias_v9 (x5 : (⟨S6x1x128, .f32⟩ : BufTy).Contents (Elt Ideal)) (p : Fin 131072) (j : Fin 128) :
    val_main_v9 (F := Ideal) x5 (ix2 p j) = x5 (ix3 (0 : Fin 6) (0 : Fin 1) j) := by
  rw [val_main_v9_apply, val_main_v8_apply, val_main_v7_apply]
  refine congrArg x5 (funext fun a => Fin.ext ?_)
  match a with
  | ⟨0, _⟩ => rfl
  | ⟨1, _⟩ => rfl
  | ⟨2, _⟩ =>
    show (0 * 128 + j.val) % 128 = j.val
    have hj : j.val < 128 := j.isLt
    omega

theorem bias_v26 (x5 : (⟨S6x1x128, .f32⟩ : BufTy).Contents (Elt Ideal)) (p : Fin 131072) (j : Fin 128) :
    val_main_v26 (F := Ideal) x5 (ix2 p j) = x5 (ix3 (1 : Fin 6) (0 : Fin 1) j) := by
  rw [val_main_v26_apply, val_main_v25_apply, val_main_v24_apply]
  refine congrArg x5 (funext fun a => Fin.ext ?_)
  match a with
  | ⟨0, _⟩ => rfl
  | ⟨1, _⟩ => rfl
  | ⟨2, _⟩ =>
    show (0 * 128 + j.val) % 128 = j.val
    have hj : j.val < 128 := j.isLt
    omega

theorem bias_v44 (x5 : (⟨S6x1x128, .f32⟩ : BufTy).Contents (Elt Ideal)) (p : Fin 131072) (j : Fin 128) :
    val_main_v44 (F := Ideal) x5 (ix2 p j) = x5 (ix3 (2 : Fin 6) (0 : Fin 1) j) := by
  rw [val_main_v44_apply, val_main_v43_apply, val_main_v42_apply]
  refine congrArg x5 (funext fun a => Fin.ext ?_)
  match a with
  | ⟨0, _⟩ => rfl
  | ⟨1, _⟩ => rfl
  | ⟨2, _⟩ =>
    show (0 * 128 + j.val) % 128 = j.val
    have hj : j.val < 128 := j.isLt
    omega

theorem bias_v63 (x5 : (⟨S6x1x128, .f32⟩ : BufTy).Contents (Elt Ideal)) (p : Fin 131072) (j : Fin 128) :
    val_main_v63 (F := Ideal) x5 (ix2 p j) = x5 (ix3 (0 : Fin 6) (0 : Fin 1) j) := by
  rw [val_main_v63_apply, val_main_v62_apply, val_main_v61_apply]
  refine congrArg x5 (funext fun a => Fin.ext ?_)
  match a with
  | ⟨0, _⟩ => rfl
  | ⟨1, _⟩ => rfl
  | ⟨2, _⟩ =>
    show (0 * 128 + j.val) % 128 = j.val
    have hj : j.val < 128 := j.isLt
    omega

theorem bias_v80 (x5 : (⟨S6x1x128, .f32⟩ : BufTy).Contents (Elt Ideal)) (p : Fin 131072) (j : Fin 128) :
    val_main_v80 (F := Ideal) x5 (ix2 p j) = x5 (ix3 (4 : Fin 6) (0 : Fin 1) j) := by
  rw [val_main_v80_apply, val_main_v79_apply, val_main_v78_apply]
  refine congrArg x5 (funext fun a => Fin.ext ?_)
  match a with
  | ⟨0, _⟩ => rfl
  | ⟨1, _⟩ => rfl
  | ⟨2, _⟩ =>
    show (0 * 128 + j.val) % 128 = j.val
    have hj : j.val < 128 := j.isLt
    omega

theorem bias_v98 (x5 : (⟨S6x1x128, .f32⟩ : BufTy).Contents (Elt Ideal)) (p : Fin 131072) (j : Fin 128) :
    val_main_v98 (F := Ideal) x5 (ix2 p j) = x5 (ix3 (5 : Fin 6) (0 : Fin 1) j) := by
  rw [val_main_v98_apply, val_main_v97_apply, val_main_v96_apply]
  refine congrArg x5 (funext fun a => Fin.ext ?_)
  match a with
  | ⟨0, _⟩ => rfl
  | ⟨1, _⟩ => rfl
  | ⟨2, _⟩ =>
    show (0 * 128 + j.val) % 128 = j.val
    have hj : j.val < 128 := j.isLt
    omega

/-! ## The constant arrays -/

theorem one_v13 (i : S131072x128.Idx) : val_main_v13 (F := Ideal) i = (1 : EReal) := by
  rw [val_main_v13_apply, val_main_cst_apply]
  exact Ideal.ofBits_one_f32

theorem one_v15 (i : S131072x128.Idx) : val_main_v15 (F := Ideal) i = (1 : EReal) := by
  rw [val_main_v15_apply, val_main_cst_0_apply]
  exact Ideal.ofBits_one_f32

theorem one_v30 (i : S131072x128.Idx) : val_main_v30 (F := Ideal) i = (1 : EReal) := by
  rw [val_main_v30_apply, val_main_cst_1_apply]
  exact Ideal.ofBits_one_f32

theorem one_v32 (i : S131072x128.Idx) : val_main_v32 (F := Ideal) i = (1 : EReal) := by
  rw [val_main_v32_apply, val_main_cst_2_apply]
  exact Ideal.ofBits_one_f32

theorem one_v48 (i : S131072x128.Idx) : val_main_v48 (F := Ideal) i = (1 : EReal) := by
  rw [val_main_v48_apply, val_main_cst_3_apply]
  exact Ideal.ofBits_one_f32

theorem one_v67 (i : S131072x128.Idx) : val_main_v67 (F := Ideal) i = (1 : EReal) := by
  rw [val_main_v67_apply, val_main_cst_4_apply]
  exact Ideal.ofBits_one_f32

theorem one_v69 (i : S131072x128.Idx) : val_main_v69 (F := Ideal) i = (1 : EReal) := by
  rw [val_main_v69_apply, val_main_cst_5_apply]
  exact Ideal.ofBits_one_f32

theorem one_v84 (i : S131072x128.Idx) : val_main_v84 (F := Ideal) i = (1 : EReal) := by
  rw [val_main_v84_apply, val_main_cst_6_apply]
  exact Ideal.ofBits_one_f32

theorem one_v86 (i : S131072x128.Idx) : val_main_v86 (F := Ideal) i = (1 : EReal) := by
  rw [val_main_v86_apply, val_main_cst_7_apply]
  exact Ideal.ofBits_one_f32

theorem one_v102 (i : S131072x128.Idx) : val_main_v102 (F := Ideal) i = (1 : EReal) := by
  rw [val_main_v102_apply, val_main_cst_8_apply]
  exact Ideal.ofBits_one_f32

theorem zero_call0 (i : S131072x128.Idx) : val_main_call0_v0 (F := Ideal) i = (0 : EReal) := by
  rw [val_main_call0_v0_apply, val_main_call0_cst_apply]
  exact Ideal.ofBits_zero_f32

/-! ## A product of the batch by a matrix, one row at a time -/

/-- Row `p` of a `[131072, 128]` by `[128, 128]` product is row `p` of the left operand times the matrix. -/
theorem dot_rows (l : (⟨S131072x128, .f32⟩ : BufTy).Contents (Elt Ideal)) (r : (⟨S128x128, .f32⟩ : BufTy).Contents (Elt Ideal)) (p : Fin 131072) (j : Fin 128)
    (u : Cert.Spec.Row) (W : Cert.Spec.Mat) (hu : ∀ k : Fin 128, l (ix2 p k) = u k)
    (hW : ∀ k n : Fin 128, r (ix2 k n) = W k n) :
    Host.dotGeneral (F := Ideal) (φ₁ := .f32) (φ₂ := .f32) dot_S131072x128_S128x128_S131072x128_1_0_0_1_n_n none l r (ix2 p j)
      = Cert.Spec.dot u W j := by
  refine (dotGeneral_plain_apply dot_S131072x128_S128x128_S131072x128_1_0_0_1_n_n rfl rfl rfl rfl rfl rfl none .single l r p j).trans ?_
  unfold Cert.Spec.dot
  exact Finset.sum_congr rfl fun k _ => by rw [hu k, hW k j]

/-! ## The first stage -/

theorem dot_v2 (x0 : (⟨S131072x128, .f32⟩ : BufTy).Contents (Elt Ideal)) (x2 : (⟨S3x128x128, .f32⟩ : BufTy).Contents (Elt Ideal)) (p : Fin 131072) (j : Fin 128) :
    val_main_v2 (F := Ideal) x0 x2 (ix2 p j) = Cert.Spec.dot (fun k => x0 (ix2 p k)) (fun k n => x2 (ix3 (0 : Fin 3) k n)) j := by
  unfold val_main_v2
  exact dot_rows x0 _ p j _ _ (fun _ => rfl) (fun k n => plane_v1 x2 k n)

theorem dot_v5 (x1 : (⟨S131072x128, .f32⟩ : BufTy).Contents (Elt Ideal)) (x4 : (⟨S6x128x128, .f32⟩ : BufTy).Contents (Elt Ideal)) (p : Fin 131072) (j : Fin 128) :
    val_main_v5 (F := Ideal) x1 x4 (ix2 p j) = Cert.Spec.dot (fun k => x1 (ix2 p k)) (fun k n => x4 (ix3 (0 : Fin 6) k n)) j := by
  unfold val_main_v5
  exact dot_rows x1 _ p j _ _ (fun _ => rfl) (fun k n => plane_v4 x4 k n)

theorem dot_v19 (x0 : (⟨S131072x128, .f32⟩ : BufTy).Contents (Elt Ideal)) (x2 : (⟨S3x128x128, .f32⟩ : BufTy).Contents (Elt Ideal)) (p : Fin 131072) (j : Fin 128) :
    val_main_v19 (F := Ideal) x0 x2 (ix2 p j) = Cert.Spec.dot (fun k => x0 (ix2 p k)) (fun k n => x2 (ix3 (1 : Fin 3) k n)) j := by
  unfold val_main_v19
  exact dot_rows x0 _ p j _ _ (fun _ => rfl) (fun k n => plane_v18 x2 k n)

theorem dot_v22 (x1 : (⟨S131072x128, .f32⟩ : BufTy).Contents (Elt Ideal)) (x4 : (⟨S6x128x128, .f32⟩ : BufTy).Contents (Elt Ideal)) (p : Fin 131072) (j : Fin 128) :
    val_main_v22 (F := Ideal) x1 x4 (ix2 p j) = Cert.Spec.dot (fun k => x1 (ix2 p k)) (fun k n => x4 (ix3 (1 : Fin 6) k n)) j := by
  unfold val_main_v22
  exact dot_rows x1 _ p j _ _ (fun _ => rfl) (fun k n => plane_v21 x4 k n)

theorem dot_v36 (x0 : (⟨S131072x128, .f32⟩ : BufTy).Contents (Elt Ideal)) (x2 : (⟨S3x128x128, .f32⟩ : BufTy).Contents (Elt Ideal)) (p : Fin 131072) (j : Fin 128) :
    val_main_v36 (F := Ideal) x0 x2 (ix2 p j) = Cert.Spec.dot (fun k => x0 (ix2 p k)) (fun k n => x2 (ix3 (2 : Fin 3) k n)) j := by
  unfold val_main_v36
  exact dot_rows x0 _ p j _ _ (fun _ => rfl) (fun k n => plane_v35 x2 k n)

/-- The update gate of the first stage. -/
theorem gate_v16 (x0 x1 : (⟨S131072x128, .f32⟩ : BufTy).Contents (Elt Ideal)) (x2 : (⟨S3x128x128, .f32⟩ : BufTy).Contents (Elt Ideal)) (x4 : (⟨S6x128x128, .f32⟩ : BufTy).Contents (Elt Ideal)) (x5 : (⟨S6x1x128, .f32⟩ : BufTy).Contents (Elt Ideal)) (p : Fin 131072) (j : Fin 128) :
    val_main_v16 (F := Ideal) x0 x1 x2 x4 x5 (ix2 p j) = Cert.Spec.gate (fun k => x0 (ix2 p k)) (fun k => x1 (ix2 p k)) (fun k n => x2 (ix3 (0 : Fin 3) k n)) (fun k n => x4 (ix3 (0 : Fin 6) k n)) (fun n => x5 (ix3 (0 : Fin 6) (0 : Fin 1) n)) j := by
  rw [val_main_v16_apply, val_main_v14_apply, val_main_v12_apply, val_main_v11_apply, val_main_v10_apply,
    val_main_v6_apply, one_v15, one_v13, bias_v9, dot_v2, dot_v5]
  rfl

/-- The reset gate of the first stage. -/
theorem gate_v33 (x0 x1 : (⟨S131072x128, .f32⟩ : BufTy).Contents (Elt Ideal)) (x2 : (⟨S3x128x128, .f32⟩ : BufTy).Contents (Elt Ideal)) (x4 : (⟨S6x128x128, .f32⟩ : BufTy).Contents (Elt Ideal)) (x5 : (⟨S6x1x128, .f32⟩ : BufTy).Contents (Elt Ideal)) (p : Fin 131072) (j : Fin 128) :
    val_main_v33 (F := Ideal) x0 x1 x2 x4 x5 (ix2 p j) = Cert.Spec.gate (fun k => x0 (ix2 p k)) (fun k => x1 (ix2 p k)) (fun k n => x2 (ix3 (1 : Fin 3) k n)) (fun k n => x4 (ix3 (1 : Fin 6) k n)) (fun n => x5 (ix3 (1 : Fin 6) (0 : Fin 1) n)) j := by
  rw [val_main_v33_apply, val_main_v31_apply, val_main_v29_apply, val_main_v28_apply, val_main_v27_apply,
    val_main_v23_apply, one_v32, one_v30, bias_v26, dot_v19, dot_v22]
  rfl

theorem dot_v40 (x0 x1 : (⟨S131072x128, .f32⟩ : BufTy).Contents (Elt Ideal)) (x2 : (⟨S3x128x128, .f32⟩ : BufTy).Contents (Elt Ideal)) (x4 : (⟨S6x128x128, .f32⟩ : BufTy).Contents (Elt Ideal)) (x5 : (⟨S6x1x128, .f32⟩ : BufTy).Contents (Elt Ideal)) (p : Fin 131072) (j : Fin 128) :
    val_main_v40 (F := Ideal) x0 x1 x2 x4 x5 (ix2 p j)
      = Cert.Spec.dot (fun k => Cert.Spec.gate (fun k => x0 (ix2 p k)) (fun k => x1 (ix2 p k)) (fun k n => x2 (ix3 (1 : Fin 3) k n)) (fun k n => x4 (ix3 (1 : Fin 6) k n)) (fun n => x5 (ix3 (1 : Fin 6) (0 : Fin 1) n)) k * x1 (ix2 p k)) (fun k n => x4 (ix3 (2 : Fin 6) k n)) j := by
  unfold val_main_v40
  refine dot_rows _ _ p j _ _ (fun k => ?_) (fun k n => plane_v39 x4 k n)
  rw [val_main_v37_apply, gate_v33]
  rfl

/-- Row `p` of the first stage's output. -/
def midH (x0 x1 : (⟨S131072x128, .f32⟩ : BufTy).Contents (Elt Ideal)) (x2 : (⟨S3x128x128, .f32⟩ : BufTy).Contents (Elt Ideal)) (x4 : (⟨S6x128x128, .f32⟩ : BufTy).Contents (Elt Ideal)) (x5 : (⟨S6x1x128, .f32⟩ : BufTy).Contents (Elt Ideal)) (p : Fin 131072) : Cert.Spec.Row :=
  Cert.Spec.stage (fun k => x0 (ix2 p k)) (fun k => x1 (ix2 p k)) (fun k n => x2 (ix3 (0 : Fin 3) k n)) (fun k n => x2 (ix3 (1 : Fin 3) k n)) (fun k n => x2 (ix3 (2 : Fin 3) k n)) (fun k n => x4 (ix3 (0 : Fin 6) k n)) (fun k n => x4 (ix3 (1 : Fin 6) k n)) (fun k n => x4 (ix3 (2 : Fin 6) k n)) (fun n => x5 (ix3 (0 : Fin 6) (0 : Fin 1) n)) (fun n => x5 (ix3 (1 : Fin 6) (0 : Fin 1) n)) (fun n => x5 (ix3 (2 : Fin 6) (0 : Fin 1) n))

theorem stage_v51 (x0 x1 : (⟨S131072x128, .f32⟩ : BufTy).Contents (Elt Ideal)) (x2 : (⟨S3x128x128, .f32⟩ : BufTy).Contents (Elt Ideal)) (x4 : (⟨S6x128x128, .f32⟩ : BufTy).Contents (Elt Ideal)) (x5 : (⟨S6x1x128, .f32⟩ : BufTy).Contents (Elt Ideal)) (p : Fin 131072) (j : Fin 128) :
    val_main_v51 (F := Ideal) x0 x1 x2 x4 x5 (ix2 p j) = midH x0 x1 x2 x4 x5 p j := by
  rw [val_main_v51_apply, val_main_v47_apply, val_main_v50_apply, val_main_v49_apply, val_main_v46_apply,
    val_main_v45_apply, val_main_v41_apply, one_v48, gate_v16, bias_v44, dot_v36, dot_v40]
  rfl

/-! ## The rectified product in between -/

/-- Row `p` of the second stage's input. -/
def midX (x0 x1 : (⟨S131072x128, .f32⟩ : BufTy).Contents (Elt Ideal)) (x2 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) : Cert.Spec.Row :=
  Cert.Spec.relu (Cert.Spec.dot (midH x0 x1 x2 x4 x5 p) (fun k n => x6 (ix2 k n)))

theorem relu_v53 (x0 x1 : (⟨S131072x128, .f32⟩ : BufTy).Contents (Elt Ideal)) (x2 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) (j : Fin 128) :
    val_main_v53 (F := Ideal) x0 x1 x2 x4 x5 x6 (ix2 p j) = midX x0 x1 x2 x4 x5 x6 p j := by
  rw [val_main_v53_apply, zero_call0]
  unfold val_main_v52
  rw [dot_rows _ x6 p j (midH x0 x1 x2 x4 x5 p) (fun k n => x6 (ix2 k n)) (fun k => stage_v51 x0 x1 x2 x4 x5 p k) (fun _ _ => rfl)]
  rfl

/-! ## The second stage -/

theorem dot_v56 (x0 x1 : (⟨S131072x128, .f32⟩ : BufTy).Contents (Elt Ideal)) (x2 x3 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) (j : Fin 128) :
    val_main_v56 (F := Ideal) x0 x1 x2 x3 x4 x5 x6 (ix2 p j) = Cert.Spec.dot (midX x0 x1 x2 x4 x5 x6 p) (fun k n => x3 (ix3 (0 : Fin 3) k n)) j := by
  unfold val_main_v56
  exact dot_rows _ _ p j _ _ (fun k => relu_v53 x0 x1 x2 x4 x5 x6 p k) (fun k n => plane_v55 x3 k n)

theorem dot_v59 (x0 x1 : (⟨S131072x128, .f32⟩ : BufTy).Contents (Elt Ideal)) (x2 : (⟨S3x128x128, .f32⟩ : BufTy).Contents (Elt Ideal)) (x4 : (⟨S6x128x128, .f32⟩ : BufTy).Contents (Elt Ideal)) (x5 : (⟨S6x1x128, .f32⟩ : BufTy).Contents (Elt Ideal)) (p : Fin 131072) (j : Fin 128) :
    val_main_v59 (F := Ideal) x0 x1 x2 x4 x5 (ix2 p j) = Cert.Spec.dot (midH x0 x1 x2 x4 x5 p) (fun k n => x4 (ix3 (0 : Fin 6) k n)) j := by
  unfold val_main_v59
  exact dot_rows _ _ p j _ _ (fun k => stage_v51 x0 x1 x2 x4 x5 p k) (fun k n => plane_v58 x4 k n)

theorem dot_v73 (x0 x1 : (⟨S131072x128, .f32⟩ : BufTy).Contents (Elt Ideal)) (x2 x3 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) (j : Fin 128) :
    val_main_v73 (F := Ideal) x0 x1 x2 x3 x4 x5 x6 (ix2 p j) = Cert.Spec.dot (midX x0 x1 x2 x4 x5 x6 p) (fun k n => x3 (ix3 (1 : Fin 3) k n)) j := by
  unfold val_main_v73
  exact dot_rows _ _ p j _ _ (fun k => relu_v53 x0 x1 x2 x4 x5 x6 p k) (fun k n => plane_v72 x3 k n)

theorem dot_v76 (x0 x1 : (⟨S131072x128, .f32⟩ : BufTy).Contents (Elt Ideal)) (x2 : (⟨S3x128x128, .f32⟩ : BufTy).Contents (Elt Ideal)) (x4 : (⟨S6x128x128, .f32⟩ : BufTy).Contents (Elt Ideal)) (x5 : (⟨S6x1x128, .f32⟩ : BufTy).Contents (Elt Ideal)) (p : Fin 131072) (j : Fin 128) :
    val_main_v76 (F := Ideal) x0 x1 x2 x4 x5 (ix2 p j) = Cert.Spec.dot (midH x0 x1 x2 x4 x5 p) (fun k n => x4 (ix3 (4 : Fin 6) k n)) j := by
  unfold val_main_v76
  exact dot_rows _ _ p j _ _ (fun k => stage_v51 x0 x1 x2 x4 x5 p k) (fun k n => plane_v75 x4 k n)

theorem dot_v90 (x0 x1 : (⟨S131072x128, .f32⟩ : BufTy).Contents (Elt Ideal)) (x2 x3 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) (j : Fin 128) :
    val_main_v90 (F := Ideal) x0 x1 x2 x3 x4 x5 x6 (ix2 p j) = Cert.Spec.dot (midX x0 x1 x2 x4 x5 x6 p) (fun k n => x3 (ix3 (2 : Fin 3) k n)) j := by
  unfold val_main_v90
  exact dot_rows _ _ p j _ _ (fun k => relu_v53 x0 x1 x2 x4 x5 x6 p k) (fun k n => plane_v89 x3 k n)

/-- The update gate of the second stage: it reuses the first state matrix and the first bias row. -/
theorem gate_v70 (x0 x1 : (⟨S131072x128, .f32⟩ : BufTy).Contents (Elt Ideal)) (x2 x3 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) (j : Fin 128) :
    val_main_v70 (F := Ideal) x0 x1 x2 x3 x4 x5 x6 (ix2 p j) = Cert.Spec.gate (midX x0 x1 x2 x4 x5 x6 p) (midH x0 x1 x2 x4 x5 p) (fun k n => x3 (ix3 (0 : Fin 3) k n)) (fun k n => x4 (ix3 (0 : Fin 6) k n)) (fun n => x5 (ix3 (0 : Fin 6) (0 : Fin 1) n)) j := by
  rw [val_main_v70_apply, val_main_v68_apply, val_main_v66_apply, val_main_v65_apply, val_main_v64_apply,
    val_main_v60_apply, one_v69, one_v67, bias_v63, dot_v56, dot_v59]
  rfl

/-- The reset gate of the second stage. -/
theorem gate_v87 (x0 x1 : (⟨S131072x128, .f32⟩ : BufTy).Contents (Elt Ideal)) (x2 x3 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) (j : Fin 128) :
    val_main_v87 (F := Ideal) x0 x1 x2 x3 x4 x5 x6 (ix2 p j) = Cert.Spec.gate (midX x0 x1 x2 x4 x5 x6 p) (midH x0 x1 x2 x4 x5 p) (fun k n => x3 (ix3 (1 : Fin 3) k n)) (fun k n => x4 (ix3 (4 : Fin 6) k n)) (fun n => x5 (ix3 (4 : Fin 6) (0 : Fin 1) n)) j := by
  rw [val_main_v87_apply, val_main_v85_apply, val_main_v83_apply, val_main_v82_apply, val_main_v81_apply,
    val_main_v77_apply, one_v86, one_v84, bias_v80, dot_v73, dot_v76]
  rfl

theorem dot_v94 (x0 x1 : (⟨S131072x128, .f32⟩ : BufTy).Contents (Elt Ideal)) (x2 x3 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) (j : Fin 128) :
    val_main_v94 (F := Ideal) x0 x1 x2 x3 x4 x5 x6 (ix2 p j)
      = Cert.Spec.dot (fun k => Cert.Spec.gate (midX x0 x1 x2 x4 x5 x6 p) (midH x0 x1 x2 x4 x5 p) (fun k n => x3 (ix3 (1 : Fin 3) k n)) (fun k n => x4 (ix3 (4 : Fin 6) k n)) (fun n => x5 (ix3 (4 : Fin 6) (0 : Fin 1) n)) k * midH x0 x1 x2 x4 x5 p k) (fun k n => x4 (ix3 (5 : Fin 6) k n)) j := by
  unfold val_main_v94
  refine dot_rows _ _ p j _ _ (fun k => ?_) (fun k n => plane_v93 x4 k n)
  rw [val_main_v91_apply, gate_v87, stage_v51]
  rfl

theorem stage_v105 (x0 x1 : (⟨S131072x128, .f32⟩ : BufTy).Contents (Elt Ideal)) (x2 x3 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) (j : Fin 128) :
    val_main_v105 (F := Ideal) x0 x1 x2 x3 x4 x5 x6 (ix2 p j)
      = Cert.Spec.stage (midX x0 x1 x2 x4 x5 x6 p) (midH x0 x1 x2 x4 x5 p) (fun k n => x3 (ix3 (0 : Fin 3) k n)) (fun k n => x3 (ix3 (1 : Fin 3) k n)) (fun k n => x3 (ix3 (2 : Fin 3) k n)) (fun k n => x4 (ix3 (0 : Fin 6) k n)) (fun k n => x4 (ix3 (4 : Fin 6) k n)) (fun k n => x4 (ix3 (5 : Fin 6) k n)) (fun n => x5 (ix3 (0 : Fin 6) (0 : Fin 1) n)) (fun n => x5 (ix3 (4 : Fin 6) (0 : Fin 1) n)) (fun n => x5 (ix3 (5 : Fin 6) (0 : Fin 1) n)) j := by
  rw [val_main_v105_apply, val_main_v101_apply, val_main_v104_apply, val_main_v103_apply, val_main_v100_apply,
    val_main_v99_apply, val_main_v95_apply, one_v102, gate_v70, stage_v51, bias_v98, dot_v90, dot_v94]
  rfl

/-! ## The reference is the cell -/

/-- Row `p` of the reference's result is the double gated cell on row `p` of the two inputs. -/
theorem ref_cell (x0 x1 : (⟨S131072x128, .f32⟩ : BufTy).Contents (Elt Ideal)) (x2 x3 : (⟨S3x128x128, .f32⟩ : BufTy).Contents (Elt Ideal)) (x4 : (⟨S6x128x128, .f32⟩ : BufTy).Contents (Elt Ideal)) (x5 : (⟨S6x1x128, .f32⟩ : BufTy).Contents (Elt Ideal)) (x6 : (⟨S128x128, .f32⟩ : BufTy).Contents (Elt Ideal)) (p : Fin 131072) (j : Fin 128) :
    Cert.ReferenceIdeal.Read.val_main_v105 (F := Ideal) x0 x1 x2 x3 x4 x5 x6 (ix2 p j)
      = Cert.Spec.cell (fun k => x0 (ix2 p k)) (fun k => x1 (ix2 p k)) (fun i k n => x2 (ix3 i k n))
          (fun i k n => x3 (ix3 i k n)) (fun i k n => x4 (ix3 i k n)) (fun i n => x5 (ix3 i (0 : Fin 1) n))
          (fun k n => x6 (ix2 k n)) j :=
  stage_v105 x0 x1 x2 x3 x4 x5 x6 p j

end Cert.RefValue

end
-- ==== Proof.lean ====
import proofs.«102413_j24713241821345_2_alg».proof.Defs
import proofs.«102413_j24713241821345_2_alg».proof.Proof.Gen.Kernel
import proofs.«102413_j24713241821345_2_alg».proof.Proof.Gen.KernelIdeal
import proofs.«102413_j24713241821345_2_alg».proof.Proof.Gen.ReferenceIdeal
import proofs.«102413_j24713241821345_2_alg».proof.Proof.Gen.Pre_finite_inputs
import proofs.«102413_j24713241821345_2_alg».proof.Proof.FrameBits
import proofs.«102413_j24713241821345_2_alg».proof.Proof.KernelValue
import proofs.«102413_j24713241821345_2_alg».proof.Proof.RefValue

/-!
# A fused double gated cell against its plain reference

The reference computes, for every batch row, two gated stages with a rectified matrix product between them: thirteen
128-term dot products per entry, three biases, two sigmoids and a hyperbolic tangent per stage. The kernel computes the
same cell from fused operands: the row `x` followed by the row `h` against one 256 by 384 matrix (the three input
matrices side by side over two state matrices and a zero block) gives all three pre-activations of a stage at once, and the
candidate's state product is added afterwards.

Over the extended reals the two are one function of the arguments. A 256-term sum is the sum of its two 128-term halves;
the lower half of the third band is a sum of products with zero; the bias and the candidate's state product are added in
the other order. Changing a number's format is the identity, and the kernel's sigmoid is by definition the reference's
`1 / (1 + exp (-x))`. None of this needs the inputs to be finite.

The kernel's program is host operations that build the fused operands, then one pipelined call over 64 blocks of 2048 batch
rows; each block of the result is the cell of its rows, and the blocks cover the result.
-/

noncomputable section

open Idealize.ShloMosaic Idealize.ShloMosaic.TcCoe Idealize.SL.Sem Idealize.ShloMosaic.ValueIdx

namespace Cert.Proof.Claims

/-- The kernel as printed runs to the end, faults nowhere and keeps its arguments. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Over the extended reals both programs end with the same result array: the cell of every batch row of the arguments.
    The kernel's array is that by its blocks; the reference's by its operations read at an index. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v105_eq, h0, h1, h2, h3, h4, h5, h6]
  funext i
  obtain ⟨p, j, rfl⟩ : ∃ (p : Fin 131072) (j : Fin 128), i = ix2 p j := ⟨i 0, i 1, eq_ix2 i⟩
  rw [Cert.RefValue.ref_cell]
  exact (Cert.Spec.whole_apply _ _ _ _ _ _ _ p j).symm

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
